-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x512 : Shape := ⟨2, ![16384, 512]⟩
abbrev S512x1024 : Shape := ⟨2, ![512, 1024]⟩
abbrev S512 : Shape := ⟨1, ![512]⟩
abbrev S2048x256 : Shape := ⟨2, ![2048, 256]⟩
abbrev S2048 : Shape := ⟨1, ![2048]⟩
abbrev S2048x512 : Shape := ⟨2, ![2048, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_

variable [Facts]

def fn_part3 {F : FTy → Type} [FloatOps F] (main_arg11 : FVec F S2048x512 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x512 .f32 := Host.absf main_arg11
  let main_cst_20 : FVec F S_ .f32 := constant S_ .f32 0x7F800000#32
  let main_v55 : FVec F S2048x512 .f32 := broadcastInDim S2048x512 ![] bcast_S_S2048x512 main_cst_20
  let main_v56 : IVec S2048x512 1 := cmpf .olt main_v54 main_v55
  let main_c_21 : IVec S_ 1 := constantI S_ 1 1#1
  let main_v57 : IVec S_ 1 := (fun x v => Host.reduce IntOp.andi x v reducesTo_S2048x512_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S512x1024 .f32) (main_arg8 : FVec F S512 .f32) (main_arg9 : FVec F S2048x256 .f32) (main_arg10 : FVec F S2048 .f32) (main_arg11 : FVec F S2048x512 .f32) (main_arg12 : FVec F S2048 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S2048x256 .f32 := Host.absf main_arg9
  let main_cst_16 : FVec F S_ .f32 := constant S_ .f32 0x7F800000#32
  let main_v45 : FVec F S2048x256 .f32 := broadcastInDim S2048x256 ![] bcast_S_S2048x256 main_cst_16
  let main_v46 : IVec S2048x256 1 := cmpf .olt main_v44 main_v45
  let main_c_17 : IVec S_ 1 := constantI S_ 1 1#1
  let main_v47 : IVec S_ 1 := (fun x v => Host.reduce IntOp.andi x v reducesTo_S2048x256_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S16384x512 .f32) (main_arg5 : FVec F S512x1024 .f32) (main_arg6 : FVec F S512 .f32) (main_arg7 : FVec F S512x1024 .f32) (main_arg8 : FVec F S512 .f32) (main_arg9 : FVec F S2048x256 .f32) (main_arg10 : FVec F S2048 .f32) (main_arg11 : FVec F S2048x512 .f32) (main_arg12 : FVec F S2048 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x256 .f32) (main_arg1 : FVec F S16384x512 .f32) (main_arg2 : FVec F S16384x512 .f32) (main_arg3 : FVec F S16384x512 .f32) (main_arg4 : FVec F S16384x512 .f32) (main_arg5 : FVec F S512x1024 .f32) (main_arg6 : FVec F S512 .f32) (main_arg7 : FVec F S512x1024 .f32) (main_arg8 : FVec F S512 .f32) (main_arg9 : FVec F S2048x256 .f32) (main_arg10 : FVec F S2048 .f32) (main_arg11 : FVec F S2048x512 .f32) (main_arg12 : FVec F S2048 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_v13 main_v16
-- ==== Kernel.lean ====
abbrev S16384x256 : Shape := ⟨2, ![16384, 256]⟩
abbrev S16384x512 : Shape := ⟨2, ![16384, 512]⟩
abbrev S512x1024 : Shape := ⟨2, ![512, 1024]⟩
abbrev S512 : Shape := ⟨1, ![512]⟩
abbrev S2048x256 : Shape := ⟨2, ![2048, 256]⟩
abbrev S2048 : Shape := ⟨1, ![2048]⟩
abbrev S2048x512 : Shape := ⟨2, ![2048, 512]⟩
abbrev S512x512 : Shape := ⟨2, ![512, 512]⟩
abbrev S1024 : Shape := ⟨1, ![1024]⟩
abbrev S1x1024 : Shape := ⟨2, ![1, 1024]⟩
abbrev S256x2048 : Shape := ⟨2, ![256, 2048]⟩
abbrev S512x2048 : Shape := ⟨2, ![512, 2048]⟩
abbrev S1x2048 : Shape := ⟨2, ![1, 2048]⟩
abbrev S512x256 : Shape := ⟨2, ![512, 256]⟩

abbrev nBuf : Space → Nat
  | .hbm => 35
  | .vmem => 20
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S2048x256, .f32⟩
  | .hbm, ⟨10, _⟩ => ⟨S2048, .f32⟩
  | .hbm, ⟨11, _⟩ => ⟨S2048x512, .f32⟩
  | .hbm, ⟨12, _⟩ => ⟨S2048, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024, .f32⟩
  | .hbm, ⟨26, _⟩ => ⟨S1x1024, .f32⟩
  | .hbm, ⟨27, _⟩ => ⟨S256x2048, .f32⟩
  | .hbm, ⟨28, _⟩ => ⟨S256x2048, .bf16⟩
  | .hbm, ⟨29, _⟩ => ⟨S512x2048, .f32⟩
  | .hbm, ⟨30, _⟩ => ⟨S512x2048, .bf16⟩
  | .hbm, ⟨31, _⟩ => ⟨S2048, .f32⟩
  | .hbm, ⟨32, _⟩ => ⟨S1x2048, .f32⟩
  | .hbm, ⟨33, _⟩ => ⟨S16384x512, .f32⟩
  | .hbm, ⟨34, _⟩ => ⟨S16384x512, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S256x2048, .bf16⟩
  | .local _ .vmem, ⟨14, _⟩ => ⟨S512x2048, .bf16⟩
  | .local _ .vmem, ⟨15, _⟩ => ⟨S1x2048, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S512x1024_S512x512_0_0 : S512x1024.Slices ![0, 0] S512x512
  transposes_S512x512_S512x512_1_0 : S512x512.Transposes [1, 0] S512x512
  slices_S512x1024_S512x512_0_512 : S512x1024.Slices ![0, 512] S512x512
  concatenates_S512x512_S512x512_S512x1024_d1 : Shape.Concatenates [S512x512, S512x512] S512x1024 1
  bitsLt_bf16_f32 : FTy.bits .bf16 < FTy.bits .f32
  concatenates_S512_S512_S1024_d0 : Shape.Concatenates [S512, S512] S1024 0
  shapeCasts_S1024_S1x1024 : S1024.ShapeCasts S1x1024
  transposes_S2048x256_S256x2048_1_0 : S2048x256.Transposes [1, 0] S256x2048
  transposes_S2048x512_S512x2048_1_0 : S2048x512.Transposes [1, 0] S512x2048
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  inb_S512x256_S512x256_0_0 : ∀ a, (![0, 0] : Fin 2 → Nat) a + S512x256.size a ≤ S512x256.size a
  h_S512x256 : 0 < S512x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x1024_S512x1024_1_0_0_1_n_n_wf : DotDims.WF S512x512 S512x1024 S512x1024 [1] [0] [0] [1] [] []
  dot_S512x256_S256x2048_S512x2048_1_0_0_1_n_n_wf : DotDims.WF S512x256 S256x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S16384x512.size a
  hwx0_4 : ∀ i : grid0.Coords, EltTy.bits .f32 = 32 ∨ (Rect.block (s := S16384x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S256x2048.size a
  hwx0_8 : ∀ i : grid0.Coords, EltTy.bits .bf16 = 32 ∨ (Rect.block (s := S256x2048) S256x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S512x2048.size a
  hwx0_9 : ∀ i : grid0.Coords, EltTy.bits .bf16 = 32 ∨ (Rect.block (s := S512x2048) S512x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .f32 = 32 ∨ (Rect.block (s := S16384x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S16384x512.size a
  hwx0_12 : ∀ i : grid0.Coords, EltTy.bits .f32 = 32 ∨ (Rect.block (s := S16384x512) S512x512.size (cc0_transform_12 i) (hinb0_12 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S256x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S512x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_1) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x512 : Shape := ⟨2, ![16384, 512]⟩
abbrev S512x1024 : Shape := ⟨2, ![512, 1024]⟩
abbrev S512 : Shape := ⟨1, ![512]⟩
abbrev S2048x256 : Shape := ⟨2, ![2048, 256]⟩
abbrev S2048 : Shape := ⟨1, ![2048]⟩
abbrev S2048x512 : Shape := ⟨2, ![2048, 512]⟩
abbrev S16384x1024 : Shape := ⟨2, ![16384, 1024]⟩
abbrev S1024x512 : Shape := ⟨2, ![1024, 512]⟩
abbrev S1x512 : Shape := ⟨2, ![1, 512]⟩
abbrev S_ : Shape := ⟨0, ![]⟩
abbrev S256x2048 : Shape := ⟨2, ![256, 2048]⟩
abbrev S16384x2048 : Shape := ⟨2, ![16384, 2048]⟩
abbrev S1x2048 : Shape := ⟨2, ![1, 2048]⟩
abbrev S512x2048 : Shape := ⟨2, ![512, 2048]⟩

abbrev nBuf : Space → Nat
  | .hbm => 87
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S2048x256, .f32⟩
  | .hbm, ⟨10, _⟩ => ⟨S2048, .f32⟩
  | .hbm, ⟨11, _⟩ => ⟨S2048x512, .f32⟩
  | .hbm, ⟨12, _⟩ => ⟨S2048, .f32⟩
  | .hbm, ⟨13, _⟩ => ⟨S16384x1024, .f32⟩
  | .hbm, ⟨14, _⟩ => ⟨S1024x512, .f32⟩
  | .hbm, ⟨15, _⟩ => ⟨S16384x512, .f32⟩
  | .hbm, ⟨16, _⟩ => ⟨S1x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S1024x512, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S256x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S512x2048, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S_, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S_, .f32⟩
  | .hbm, ⟨80, _⟩ => ⟨S16384x512, .f32⟩
  | .hbm, ⟨81, _⟩ => ⟨S16384x512, .f32⟩
  | .hbm, ⟨82, _⟩ => ⟨S_, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S2048x256_S256x2048_1_0 : S2048x256.Transposes [1, 0] S256x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  transposes_S2048x512_S512x2048_1_0 : S2048x512.Transposes [1, 0] S512x2048
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  dot_S16384x1024_S1024x512_S16384x512_1_0_0_1_n_n_wf : DotDims.WF S16384x1024 S1024x512 S16384x512 [1] [0] [0] [1] [] []
  dot_S16384x256_S256x2048_S16384x2048_1_0_0_1_n_n_wf : DotDims.WF S16384x256 S256x2048 S16384x2048 [1] [0] [0] [1] [] []
  dot_S16384x512_S512x2048_S16384x2048_1_0_0_1_n_n_wf : DotDims.WF S16384x512 S512x2048 S16384x2048 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.CellRow.lean ====
/-
  One step of a gated recurrent cell, on ONE row, over the extended reals.

  A row carries an input vector `x` (256 entries) and four state vectors of 512 entries: the hidden state `hs`, the cell state
  `cs`, and the hidden states `ha`, `hb` of the two neighbours. Two "spatial" gates are fused into one 1024-wide affine map of
  the neighbours' states, `logit n = Σ_k ha k · wa k n + Σ_k hb k · wb k n + bs n`: its columns `0 … 511` gate the cell state,
  `cell q = cs q · σ (logit q)`, its columns `512 … 1023` gate the hidden state, `hid k = hs k · σ (logit (512 + k))`, with `σ`
  the logistic function. The four gates of the cell proper are one 2048-wide affine map of the input and the gated hidden
  state, `gate n = Σ_k x k · wi k n + Σ_k hid k · wh k n + b n`, read in four runs of 512 columns (input, forget, candidate,
  output):
    cnew q = σ (gate (512 + q)) · cell q + σ (gate q) · tanh (gate (1024 + q)),
    hnew q = σ (gate (1536 + q)) · tanh (cnew q).
  Every operation is the extended reals' own (sums, products, `Ideal.logistic`, `Ideal.tanh`), so nothing is asked of the entries.
-/
import Idealize.ShloMosaic.PureOps.Ideal
import Idealize.ShloMosaic.Lib.ValueIdx

noncomputable section

namespace Cert.Cell

open Idealize.ShloMosaic Idealize.ShloMosaic.ValueIdx

/-- The entries of one row of the five row-wise arrays. -/
structure Row where
  x : Fin 256 → EReal
  hs : Fin 512 → EReal
  cs : Fin 512 → EReal
  ha : Fin 512 → EReal
  hb : Fin 512 → EReal

/-- The weights in the arrangement the affine maps contract them: one row per contracted coordinate, one column per output. -/
structure Weights where
  wa : Fin 512 → Fin 1024 → EReal
  wb : Fin 512 → Fin 1024 → EReal
  bs : Fin 1024 → EReal
  wi : Fin 256 → Fin 2048 → EReal
  wh : Fin 512 → Fin 2048 → EReal
  b : Fin 2048 → EReal

/-- Column `o + q` of an array with at least `o + 512` columns. -/
abbrev col {N : Nat} (o : Nat) (q : Fin 512) (h : o + 512 ≤ N) : Fin N := ⟨o + q.val, by have := q.isLt; omega⟩

/-- The fused spatial gates before the logistic function, at fused column `n`. -/
def logit (r : Row) (w : Weights) (n : Fin 1024) : EReal :=
  ((∑ k : Fin 512, r.ha k * w.wa k n) + (∑ k : Fin 512, r.hb k * w.wb k n)) + w.bs n

/-- The hidden state after its spatial gate. -/
def hid (r : Row) (w : Weights) (k : Fin 512) : EReal :=
  r.hs k * Ideal.logistic (logit r w (col 512 k (by norm_num)))

/-- The cell state after its spatial gate. -/
def cell (r : Row) (w : Weights) (q : Fin 512) : EReal :=
  r.cs q * Ideal.logistic (logit r w (col 0 q (by norm_num)))

/-- The four gates before their activations, at fused column `n`. -/
def gate (r : Row) (w : Weights) (n : Fin 2048) : EReal :=
  ((∑ k : Fin 256, r.x k * w.wi k n) + (∑ k : Fin 512, hid r w k * w.wh k n)) + w.b n

/-- The new cell state. -/
def cnew (r : Row) (w : Weights) (q : Fin 512) : EReal :=
  Ideal.logistic (gate r w (col 512 q (by norm_num))) * cell r w q
    + Ideal.logistic (gate r w (col 0 q (by norm_num))) * Ideal.tanh (gate r w (col 1024 q (by norm_num)))

/-- The new hidden state. -/
def hnew (r : Row) (w : Weights) (q : Fin 512) : EReal :=
  Ideal.logistic (gate r w (col 1536 q (by norm_num))) * Ideal.tanh (cnew r w q)

/-- Row `p` of five row-wise arrays with `A` rows. -/
def rowOf {A : Nat} (X : FVec Ideal ⟨2, ![A, 256]⟩ .f32) (HS CS HA HB : FVec Ideal ⟨2, ![A, 512]⟩ .f32) (p : Fin A) : Row where
  x k := X (ix2 p k)
  hs k := HS (ix2 p k)
  cs k := CS (ix2 p k)
  ha k := HA (ix2 p k)
  hb k := HB (ix2 p k)

/-- The weights read off six arrays laid out contracted-coordinate first, the two biases as one-row matrices. -/
def weightsOf {φ : FTy} (WA WB : FVec Ideal ⟨2, ![512, 1024]⟩ φ) (BS : FVec Ideal ⟨2, ![1, 1024]⟩ .f32)
    (WI : FVec Ideal ⟨2, ![256, 2048]⟩ φ) (WH : FVec Ideal ⟨2, ![512, 2048]⟩ φ) (B : FVec Ideal ⟨2, ![1, 2048]⟩ .f32) : Weights where
  wa k n := WA (ix2 k n)
  wb k n := WB (ix2 k n)
  bs n := BS (ix2 (0 : Fin 1) n)
  wi k n := WI (ix2 k n)
  wh k n := WH (ix2 k n)
  b n := B (ix2 (0 : Fin 1) n)

/-- Two rows with the same entries are one row. -/
theorem rowOf_congr {A B : Nat} (X : FVec Ideal ⟨2, ![A, 256]⟩ .f32) (HS CS HA HB : FVec Ideal ⟨2, ![A, 512]⟩ .f32)
    (X' : FVec Ideal ⟨2, ![B, 256]⟩ .f32) (HS' CS' HA' HB' : FVec Ideal ⟨2, ![B, 512]⟩ .f32) (p : Fin A) (r : Fin B)
    (h0 : ∀ k, X (ix2 p k) = X' (ix2 r k)) (h1 : ∀ k, HS (ix2 p k) = HS' (ix2 r k)) (h2 : ∀ k, CS (ix2 p k) = CS' (ix2 r k))
    (h3 : ∀ k, HA (ix2 p k) = HA' (ix2 r k)) (h4 : ∀ k, HB (ix2 p k) = HB' (ix2 r k)) :
    rowOf X HS CS HA HB p = rowOf X' HS' CS' HA' HB' r := by
  unfold rowOf
  simp only [h0, h1, h2, h3, h4]

/-- Two weight sets read off arrays with the same entries are one weight set. -/
theorem weightsOf_congr {φ ψ : FTy} (WA WB : FVec Ideal ⟨2, ![512, 1024]⟩ φ) (BS : FVec Ideal ⟨2, ![1, 1024]⟩ .f32)
    (WI : FVec Ideal ⟨2, ![256, 2048]⟩ φ) (WH : FVec Ideal ⟨2, ![512, 2048]⟩ φ) (B : FVec Ideal ⟨2, ![1, 2048]⟩ .f32)
    (WA' WB' : FVec Ideal ⟨2, ![512, 1024]⟩ ψ) (BS' : FVec Ideal ⟨2, ![1, 1024]⟩ .f32)
    (WI' : FVec Ideal ⟨2, ![256, 2048]⟩ ψ) (WH' : FVec Ideal ⟨2, ![512, 2048]⟩ ψ) (B' : FVec Ideal ⟨2, ![1, 2048]⟩ .f32)
    (h0 : ∀ k n, WA (ix2 k n) = WA' (ix2 k n)) (h1 : ∀ k n, WB (ix2 k n) = WB' (ix2 k n))
    (h2 : ∀ n, BS (ix2 (0 : Fin 1) n) = BS' (ix2 (0 : Fin 1) n)) (h3 : ∀ k n, WI (ix2 k n) = WI' (ix2 k n))
    (h4 : ∀ k n, WH (ix2 k n) = WH' (ix2 k n)) (h5 : ∀ n, B (ix2 (0 : Fin 1) n) = B' (ix2 (0 : Fin 1) n)) :
    weightsOf WA WB BS WI WH B = weightsOf WA' WB' BS' WI' WH' B' := by
  unfold weightsOf
  simp only [h0, h1, h2, h3, h4, h5]

/-- The new cell state of every row, as one array. -/
def newCell {A : Nat} (X : FVec Ideal ⟨2, ![A, 256]⟩ .f32) (HS CS HA HB : FVec Ideal ⟨2, ![A, 512]⟩ .f32) (w : Weights) :
    FVec Ideal ⟨2, ![A, 512]⟩ .f32 :=
  fun i => cnew (rowOf X HS CS HA HB ⟨(i 0).val, idx2_lt0 i⟩) w ⟨(i 1).val, idx2_lt1 i⟩

/-- The new hidden state of every row, as one array. -/
def newHidden {A : Nat} (X : FVec Ideal ⟨2, ![A, 256]⟩ .f32) (HS CS HA HB : FVec Ideal ⟨2, ![A, 512]⟩ .f32) (w : Weights) :
    FVec Ideal ⟨2, ![A, 512]⟩ .f32 :=
  fun i => hnew (rowOf X HS CS HA HB ⟨(i 0).val, idx2_lt0 i⟩) w ⟨(i 1).val, idx2_lt1 i⟩

theorem newCell_ix2 {A : Nat} (X : FVec Ideal ⟨2, ![A, 256]⟩ .f32) (HS CS HA HB : FVec Ideal ⟨2, ![A, 512]⟩ .f32) (w : Weights)
    (r : Fin A) (q : Fin 512) : newCell X HS CS HA HB w (ix2 r q) = cnew (rowOf X HS CS HA HB r) w q := rfl

theorem newHidden_ix2 {A : Nat} (X : FVec Ideal ⟨2, ![A, 256]⟩ .f32) (HS CS HA HB : FVec Ideal ⟨2, ![A, 512]⟩ .f32) (w : Weights)
    (r : Fin A) (q : Fin 512) : newHidden X HS CS HA HB w (ix2 r q) = hnew (rowOf X HS CS HA HB r) w q := rfl

end Cert.Cell

end
-- ==== Proof.CellBody.lean ====
/-
  The kernel body's arithmetic, read at one entry of its block. The body holds a block of 512 rows of each row-wise array
  and the whole of each weight array; every value it computes at row `p` of the block depends on row `p` of the row-wise
  blocks only. A product on the matrix unit into the zero accumulator is the finite sum over the contracted coordinate,
  the rounding of an operand to bf16 is the identity on the extended reals, a bias row repeated down the block reads its own
  column, and a run of 512 columns cut from a wider value at offset `o` reads column `o + q`. So the two values the body
  stores are, entry by entry, the new cell state and the new hidden state of the block's row (Cert.Cell, CellRow.lean).
-/
import proofs.«143091_j83700322664663_2_alg».proof.Proof.Gen.KernelIdeal.Skeleton
import proofs.«143091_j83700322664663_2_alg».proof.Proof.LibPlainDot
import proofs.«143091_j83700322664663_2_alg».proof.Proof.CellRow
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Cell

/-- A bias row recast to its own shape and repeated down a block reads, at `(p, n)`, the row's entry `n`. -/
theorem bias_apply {A N : Nat} (v : FVec Ideal ⟨2, ![1, N]⟩ .f32) (hc : (⟨2, ![1, N]⟩ : Shape).ShapeCasts ⟨2, ![1, N]⟩)
    (hb : (⟨2, ![1, N]⟩ : Shape).Broadcasts ⟨2, ![A, N]⟩) (p : Fin A) (n : Fin N) :
    broadcastTo ⟨2, ![A, N]⟩ (shapeCast ⟨2, ![1, N]⟩ v hc) hb (ix2 p n) = v (ix2 (0 : Fin 1) n) := by
  rw [shapeCast_self]
  exact broadcastTo_1b_ab_apply v hb p n

theorem dotA : dot_S512x512_S512x1024_S512x1024_1_0_0_1_n_n = DotDims.plain 512 512 1024 := rfl
theorem dotI : dot_S512x256_S256x2048_S512x2048_1_0_0_1_n_n = DotDims.plain 512 256 2048 := rfl
theorem dotH : dot_S512x512_S512x2048_S512x2048_1_0_0_1_n_n = DotDims.plain 512 512 2048 := rfl

/-- The fused spatial gates before the logistic function: two products added, plus the bias row. -/
theorem pay4_apply (v0 v2 : FVec Ideal S512x512 .f32) (v4 v6 : FVec Ideal S512x1024 .bf16) (v11 : FVec Ideal S1x1024 .f32)
    (p : Fin 512) (n : Fin 1024) :
    k0_pay4 (F := Ideal) v0 v2 v4 v6 v11 (ix2 p n)
      = ((∑ k : Fin 512, v0 (ix2 p k) * v4 (ix2 k n)) + (∑ k : Fin 512, v2 (ix2 p k) * v6 (ix2 k n)))
          + v11 (ix2 (0 : Fin 1) n) := by
  unfold k0_pay4
  rw [shapeCast_self v4, shapeCast_self v6, dotA]
  refine (addf_apply _ _ _).trans (congrArg₂ (· + ·) ?_ (bias_apply v11 _ _ p n))
  refine (addf_apply _ _ _).trans (congrArg₂ (· + ·) ?_ ?_)
  · exact PlainDot.matmul_apply_ix2 none (truncf .bf16 v0 bitsLt_bf16_f32) v4 p n
  · exact PlainDot.matmul_apply_ix2 none (truncf .bf16 v2 bitsLt_bf16_f32) v6 p n

/-- The cell state after its spatial gate. -/
theorem pay5_apply (v0 v2 : FVec Ideal S512x512 .f32) (v4 v6 : FVec Ideal S512x1024 .bf16) (v11 : FVec Ideal S1x1024 .f32)
    (v19 : FVec Ideal S512x512 .f32) (p q : Fin 512) :
    k0_pay5 (F := Ideal) v0 v2 v4 v6 v11 v19 (ix2 p q)
      = v19 (ix2 p q) * Ideal.logistic (k0_pay4 (F := Ideal) v0 v2 v4 v6 v11 (ix2 p (col 0 q (by norm_num)))) := by
  unfold k0_pay5
  refine (mulf_apply _ _ _).trans (congrArg (v19 (ix2 p q) * ·) ?_)
  exact congrArg Ideal.logistic (slice2_axis1_apply 0 _ _ p q (col 0 q (by norm_num)) rfl)

/-- The four gates before the bias: the input's product plus the gated hidden state's product. -/
theorem pay6_apply (v0 v2 : FVec Ideal S512x512 .f32) (v4 v6 : FVec Ideal S512x1024 .bf16) (v11 : FVec Ideal S1x1024 .f32)
    (v21 : FVec Ideal S512x512 .f32) (v24 : FVec Ideal S512x256 .f32) (v26 : FVec Ideal S256x2048 .bf16)
    (v28 : FVec Ideal S512x2048 .bf16) (p : Fin 512) (n : Fin 2048) :
    k0_pay6 (F := Ideal) v0 v2 v4 v6 v11 v21 v24 v26 v28 (ix2 p n)
      = (∑ k : Fin 256, v24 (ix2 p k) * v26 (ix2 k n))
        + (∑ k : Fin 512, (v21 (ix2 p k) * Ideal.logistic (k0_pay4 (F := Ideal) v0 v2 v4 v6 v11 (ix2 p (col 512 k (by norm_num)))))
            * v28 (ix2 k n)) := by
  unfold k0_pay6
  rw [shapeCast_self v26, shapeCast_self v28, dotI, dotH]
  refine (addf_apply _ _ _).trans (congrArg₂ (· + ·) ?_ ?_)
  · exact PlainDot.matmul_apply_ix2 none (truncf .bf16 v24 bitsLt_bf16_f32) v26 p n
  · refine (PlainDot.matmul_apply_ix2 none _ v28 p n).trans (Finset.sum_congr rfl fun k _ => congrArg (· * v28 (ix2 k n)) ?_)
    refine (mulf_apply _ _ _).trans (congrArg (v21 (ix2 p k) * ·) ?_)
    exact congrArg Ideal.logistic (slice2_axis1_apply 512 _ _ p k (col 512 k (by norm_num)) rfl)

/-- The four gates before their activations: the bias row added. -/
theorem pay1_apply (v32 : FVec Ideal S512x2048 .f32) (v33 : FVec Ideal S1x2048 .f32) (p : Fin 512) (n : Fin 2048) :
    k0_pay1 (F := Ideal) v32 v33 (ix2 p n) = v32 (ix2 p n) + v33 (ix2 (0 : Fin 1) n) := by
  unfold k0_pay1
  exact (addf_apply _ _ _).trans (congrArg (v32 (ix2 p n) + ·) (bias_apply v33 _ _ p n))

/-- The new cell state from the gated cell state and the four gates. -/
theorem pay2_apply (v20 : FVec Ideal S512x512 .f32) (v32 : FVec Ideal S512x2048 .f32) (v33 : FVec Ideal S1x2048 .f32)
    (p q : Fin 512) :
    k0_pay2 (F := Ideal) v20 v32 v33 (ix2 p q)
      = Ideal.logistic (k0_pay1 (F := Ideal) v32 v33 (ix2 p (col 512 q (by norm_num)))) * v20 (ix2 p q)
        + Ideal.logistic (k0_pay1 (F := Ideal) v32 v33 (ix2 p (col 0 q (by norm_num))))
          * Ideal.tanh (k0_pay1 (F := Ideal) v32 v33 (ix2 p (col 1024 q (by norm_num)))) := by
  unfold k0_pay2
  refine (addf_apply _ _ _).trans (congrArg₂ (· + ·) ?_ ?_)
  · refine (mulf_apply _ _ _).trans (congrArg (· * v20 (ix2 p q)) ?_)
    exact congrArg Ideal.logistic (slice2_axis1_apply 512 _ _ p q (col 512 q (by norm_num)) rfl)
  · refine (mulf_apply _ _ _).trans (congrArg₂ (· * ·) ?_ ?_)
    · exact congrArg Ideal.logistic (slice2_axis1_apply 0 _ _ p q (col 0 q (by norm_num)) rfl)
    · exact congrArg Ideal.tanh (slice2_axis1_apply 1024 _ _ p q (col 1024 q (by norm_num)) rfl)

/-- The new hidden state from the output gate and the new cell state. -/
theorem pay3_apply (v20 : FVec Ideal S512x512 .f32) (v32 : FVec Ideal S512x2048 .f32) (v33 : FVec Ideal S1x2048 .f32)
    (p q : Fin 512) :
    k0_pay3 (F := Ideal) v20 v32 v33 (ix2 p q)
      = Ideal.logistic (k0_pay1 (F := Ideal) v32 v33 (ix2 p (col 1536 q (by norm_num)))) * Ideal.tanh (k0_pay2 (F := Ideal) v20 v32 v33 (ix2 p q)) := by
  unfold k0_pay3
  refine (mulf_apply _ _ _).trans (congrArg₂ (· * ·) ?_ rfl)
  exact congrArg Ideal.logistic (slice2_axis1_apply 1536 _ _ p q (col 1536 q (by norm_num)) rfl)

section
variable (P0 P1 : FVec Ideal S512x512 .f32) (P2 P3 : FVec Ideal S512x1024 .bf16) (P4 : FVec Ideal S1x1024 .f32)
  (P5 : FVec Ideal S512x512 .f32) (P6 : FVec Ideal S512x256 .f32) (P7 : FVec Ideal S256x2048 .bf16)
  (P8 : FVec Ideal S512x2048 .bf16) (P9 : FVec Ideal S1x2048 .f32) (P10 : FVec Ideal S512x512 .f32)

/-- The fused spatial gates at `(p, n)` are the row's. -/
theorem logit_body (p : Fin 512) (n : Fin 1024) :
    k0_pay4 (F := Ideal) P0 P1 P2 P3 P4 (ix2 p n) = logit (rowOf P6 P5 P10 P0 P1 p) (weightsOf P2 P3 P4 P7 P8 P9) n :=
  pay4_apply P0 P1 P2 P3 P4 p n

/-- The four gates at `(p, n)` are the row's. -/
theorem gate_body (p : Fin 512) (n : Fin 2048) :
    k0_pay1 (F := Ideal) (k0_pay6 (F := Ideal) P0 P1 P2 P3 P4 P5 P6 P7 P8) P9 (ix2 p n) = gate (rowOf P6 P5 P10 P0 P1 p) (weightsOf P2 P3 P4 P7 P8 P9) n := by
  rw [pay1_apply, pay6_apply]
  simp only [logit_body P0 P1 P2 P3 P4 P5 P6 P7 P8 P9 P10]
  rfl

/-- The value stored to the second output, at `(p, q)`: the row's new cell state. -/
theorem cnew_body (p q : Fin 512) :
    k0_pay2 (F := Ideal) (k0_pay5 (F := Ideal) P0 P1 P2 P3 P4 P10) (k0_pay6 (F := Ideal) P0 P1 P2 P3 P4 P5 P6 P7 P8) P9 (ix2 p q)
      = cnew (rowOf P6 P5 P10 P0 P1 p) (weightsOf P2 P3 P4 P7 P8 P9) q := by
  rw [pay2_apply, gate_body P0 P1 P2 P3 P4 P5 P6 P7 P8 P9 P10, gate_body P0 P1 P2 P3 P4 P5 P6 P7 P8 P9 P10,
    gate_body P0 P1 P2 P3 P4 P5 P6 P7 P8 P9 P10, pay5_apply, logit_body P0 P1 P2 P3 P4 P5 P6 P7 P8 P9 P10]
  rfl

/-- The value stored to the first output, at `(p, q)`: the row's new hidden state. -/
theorem hnew_body (p q : Fin 512) :
    k0_pay3 (F := Ideal) (k0_pay5 (F := Ideal) P0 P1 P2 P3 P4 P10) (k0_pay6 (F := Ideal) P0 P1 P2 P3 P4 P5 P6 P7 P8) P9 (ix2 p q)
      = hnew (rowOf P6 P5 P10 P0 P1 p) (weightsOf P2 P3 P4 P7 P8 P9) q := by
  rw [pay3_apply, gate_body P0 P1 P2 P3 P4 P5 P6 P7 P8 P9 P10, cnew_body]
  rfl
end

end Cert.KernelIdeal.Body

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«143091_j83700322664663_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSplitLayer.lean ====
/-
  A linear layer applied to rows that come in two parts, followed by the rectifier, over the extended reals, in its two
  spellings. A row-tiled kernel holds the weight matrix `W` (one row per output feature, `K₁ + K₂` columns) as two
  transposed column ranges `W₁ = (W[:, :K₁])ᵀ` and `W₂ = (W[:, K₁:])ᵀ`, multiplies each part of the row block by its range on
  the matrix unit (the rounding of the operands to bf16 is the identity on the extended reals, and a product into the zero
  accumulator is the finite sum over the contracted coordinate), adds the two products, adds the bias row and takes the
  maximum with zero. The host lays the two parts side by side, multiplies the `K₁ + K₂`-wide rows by `Wᵀ` in one
  `dot_general`, adds the bias lifted twice and takes the maximum with a broadcast zero. Entry `(r, j)` of either is
    max (Σ_{k < K₁} X₁(r,k)·W(j,k) + Σ_{k < K₂} X₂(r,k)·W(j,K₁+k) + b(j)) 0 :
  a sum over `Fin (K₁ + K₂)` is the sum over its first `K₁` positions plus the sum over the remaining `K₂`, which holds
  in every commutative additive monoid, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«143091_j83700322664663_2_alg».proof.Proof.LibPlainDot
import proofs.«143091_j83700322664663_2_alg».proof.Proof.LibAffine

namespace Idealize.ShloMosaic.SplitLayer

open Idealize.ShloMosaic.ValueIdx

variable {A K₁ K₂ K M : Nat}

/-- The layer on rows in two parts with the weights in two transposed ranges: entry `(r, j)` is
    `max (Σ_k X₁(r,k)·W₁(k,j) + Σ_k X₂(r,k)·W₂(k,j) + b(j)) 0`. -/
noncomputable def layer (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32) :
    FVec Ideal ⟨2, ![A, M]⟩ .f32 :=
  fun i => max (((∑ k : Fin K₁, X₁ (ix2 ⟨(i 0).val, idx2_lt0 i⟩ k) * W₁ (ix2 k ⟨(i 1).val, idx2_lt1 i⟩))
      + (∑ k : Fin K₂, X₂ (ix2 ⟨(i 0).val, idx2_lt0 i⟩ k) * W₂ (ix2 k ⟨(i 1).val, idx2_lt1 i⟩)))
      + b (ix1 ⟨(i 1).val, idx2_lt1 i⟩)) (Ideal.ofBits .f32 0x00000000#32)

theorem layer_ix2 (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (p : Fin A) (q : Fin M) :
    layer X₁ X₂ W₁ W₂ b (ix2 p q)
      = max (((∑ k : Fin K₁, X₁ (ix2 p k) * W₁ (ix2 k q)) + (∑ k : Fin K₂, X₂ (ix2 p k) * W₂ (ix2 k q))) + b (ix1 q))
          (Ideal.ofBits .f32 0x00000000#32) := rfl

/-- An entry of the layer depends on its own row of the two parts, its own column of the two weight ranges and its own
    bias entry only: row `p`, column `q` of the layer on a block of rows is row `r`, column `q` of the layer on whole
    arrays when those five agree. -/
theorem layer_entry_congr {B : Nat} (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (x₁ : FVec Ideal ⟨2, ![B, K₁]⟩ .f32) (x₂ : FVec Ideal ⟨2, ![B, K₂]⟩ .f32)
    (w₁ : FVec Ideal ⟨2, ![K₁, M]⟩ .f32) (w₂ : FVec Ideal ⟨2, ![K₂, M]⟩ .f32) (b' : FVec Ideal ⟨1, ![M]⟩ .f32)
    (p : Fin B) (r : Fin A) (q : Fin M)
    (h₁ : ∀ k, x₁ (ix2 p k) = X₁ (ix2 r k)) (h₂ : ∀ k, x₂ (ix2 p k) = X₂ (ix2 r k))
    (h₃ : ∀ k, w₁ (ix2 k q) = W₁ (ix2 k q)) (h₄ : ∀ k, w₂ (ix2 k q) = W₂ (ix2 k q)) (h₅ : b' (ix1 q) = b (ix1 q)) :
    layer x₁ x₂ w₁ w₂ b' (ix2 p q) = layer X₁ X₂ W₁ W₂ b (ix2 r q) := by
  rw [layer_ix2, layer_ix2]
  simp only [h₁, h₂, h₃, h₄, h₅]

/-- The kernel body's value at row `p`, column `q` of its block: two products into zero accumulators added, the bias
    `[M]` recast to a row and repeated down the block, the maximum with a splat zero. -/
theorem body_apply (prec : Option ContractPrecision) (x₁ : FVec Ideal ⟨2, ![A, K₁]⟩ .f32) (x₂ : FVec Ideal ⟨2, ![A, K₂]⟩ .f32)
    (w₁ : FVec Ideal ⟨2, ![K₁, M]⟩ .f32) (w₂ : FVec Ideal ⟨2, ![K₂, M]⟩ .f32) (b : FVec Ideal ⟨1, ![M]⟩ .f32)
    (ht : FTy.bf16.bits < FTy.f32.bits) (hc : (⟨1, ![M]⟩ : Shape).ShapeCasts ⟨2, ![1, M]⟩)
    (hb : (⟨2, ![1, M]⟩ : Shape).Broadcasts ⟨2, ![A, M]⟩) (p : Fin A) (q : Fin M) :
    maximumf
        (addf
          (addf
            (FloatOps.matmul (DotDims.plain A K₁ M) prec (truncf .bf16 x₁ ht) (truncf .bf16 w₁ ht) (constant ⟨2, ![A, M]⟩ .f32 0x00000000#32))
            (FloatOps.matmul (DotDims.plain A K₂ M) prec (truncf .bf16 x₂ ht) (truncf .bf16 w₂ ht) (constant ⟨2, ![A, M]⟩ .f32 0x00000000#32)))
          (broadcastTo ⟨2, ![A, M]⟩ (shapeCast ⟨2, ![1, M]⟩ b hc) hb))
        (broadcast ⟨2, ![A, M]⟩ (Scalar.ofBits (F := Ideal) .f32 0x00000000#32)) (ix2 p q)
      = layer x₁ x₂ w₁ w₂ b (ix2 p q) := by
  rw [layer_ix2]
  refine (maximumf_apply _ _ _).trans (congrArg₂ max ?_ rfl)
  refine (addf_apply _ _ _).trans (congrArg₂ (· + ·) ?_ ?_)
  · refine (addf_apply _ _ _).trans (congrArg₂ (· + ·) ?_ ?_)
    · exact PlainDot.matmul_apply_ix2 prec (truncf .bf16 x₁ ht) (truncf .bf16 w₁ ht) p q
    · exact PlainDot.matmul_apply_ix2 prec (truncf .bf16 x₂ ht) (truncf .bf16 w₂ ht) p q
  · exact (broadcastTo_1b_ab_apply _ hb p q).trans (shapeCast_a_1a_apply b hc 0 q)

/-- Two arrays laid side by side along the columns, read in the first one's columns. -/
theorem concat_cols_left (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₁) :
    concatenate ⟨2, ![A, K₁ + K₂]⟩ 1 [⟨⟨2, ![A, K₁]⟩, X₁⟩, ⟨⟨2, ![A, K₂]⟩, X₂⟩] hcat (ix2 p (Fin.castAdd K₂ k)) = X₁ (ix2 p k) :=
  concatenate_pair_apply_left 1 X₁ X₂ hcat (ix2 p (Fin.castAdd K₂ k)) rfl (ix2 p k) fun b =>
    match b with
    | ⟨0, _⟩ => rfl
    | ⟨1, _⟩ => rfl

/-- Two arrays laid side by side along the columns, read in the second one's columns. -/
theorem concat_cols_right (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₂) :
    concatenate ⟨2, ![A, K₁ + K₂]⟩ 1 [⟨⟨2, ![A, K₁]⟩, X₁⟩, ⟨⟨2, ![A, K₂]⟩, X₂⟩] hcat (ix2 p (Fin.natAdd K₁ k)) = X₂ (ix2 p k) :=
  concatenate_pair_apply_right 1 X₁ X₂ hcat (ix2 p (Fin.natAdd K₁ k)) rfl rfl (ix2 p k)
    (fun b hb =>
      match b, hb with
      | ⟨0, _⟩, _ => rfl
      | ⟨1, _⟩, hb => absurd rfl hb)
    (show k.val + K₁ = K₁ + k.val from Nat.add_comm _ _)

/-- A matrix transposed, read at `(c, q)`: the matrix at `(q, c)`. -/
theorem transpose_ix2 {R C : Nat} (W : FVec Ideal ⟨2, ![R, C]⟩ .f32) (h : (⟨2, ![R, C]⟩ : Shape).Transposes [1, 0] ⟨2, ![C, R]⟩)
    (c : Fin C) (q : Fin R) : transpose ⟨2, ![C, R]⟩ [1, 0] W h (ix2 c q) = W (ix2 q c) :=
  transpose_apply [1, 0] W h (ix2 c q) (ix2 q c) fun b =>
    match b with
    | ⟨0, _⟩ => rfl
    | ⟨1, _⟩ => rfl

/-- A range of `C'` columns of a matrix starting at column `o`, transposed, read at `(k, q)`: the matrix at `(q, o + k)`. -/
theorem transpose_cols_ix2 {R C C' : Nat} (o : Nat) (W : FVec Ideal ⟨2, ![R, C]⟩ .f32)
    (hs : (⟨2, ![R, C]⟩ : Shape).Slices ![0, o] ⟨2, ![R, C']⟩)
    (h : (⟨2, ![R, C']⟩ : Shape).Transposes [1, 0] ⟨2, ![C', R]⟩) (k : Fin C') (q : Fin R) (hk : o + k.val < C) :
    transpose ⟨2, ![C', R]⟩ [1, 0] (extractStridedSlice ⟨2, ![R, C']⟩ ![0, o] W hs) h (ix2 k q) = W (ix2 q ⟨o + k.val, hk⟩) :=
  (transpose_ix2 _ h k q).trans
    (extractStridedSlice_apply ![0, o] W hs (ix2 q k) (ix2 q ⟨o + k.val, hk⟩) fun a =>
      match a with
      | ⟨0, _⟩ => (Nat.zero_add _).symm
      | ⟨1, _⟩ => rfl)

/-- The host's spelling at `(p, q)`, against the layer on the two transposed column ranges of the weight matrix. -/
theorem host_apply (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b (ix2 p q) := by
  rw [layer_ix2]
  refine (maximumf_apply _ _ _).trans (congrArg₂ max ?_ ?_)
  · refine (addf_apply _ _ _).trans (congrArg₂ (· + ·) ?_ (Affine.bias_rows_apply b h1 h2 p q))
    refine (PlainDot.dotGeneral_apply_ix2 prec sched _ _ p q).trans ?_
    rw [Fin.sum_univ_add]
    refine congrArg₂ (· + ·) (Finset.sum_congr rfl fun k _ => ?_) (Finset.sum_congr rfl fun k _ => ?_)
    · refine congrArg₂ (· * ·) (concat_cols_left X₁ X₂ hcat p k) ?_
      refine (transpose_ix2 W htr (Fin.castAdd K₂ k) q).trans ?_
      refine ((transpose_cols_ix2 0 W hs₁ ht₁ k q (by have := k.isLt; omega)).trans ?_).symm
      exact congrArg W (congrArg (ix2 q) (Fin.ext (Nat.zero_add _)))
    · refine congrArg₂ (· * ·) (concat_cols_right X₁ X₂ hcat p k) ?_
      refine (transpose_ix2 W htr (Fin.natAdd K₁ k) q).trans ?_
      exact (transpose_cols_ix2 K₁ W hs₂ ht₂ k q (by have := k.isLt; omega)).symm
  · exact broadcastInDim_apply _ h0 _ (ix2 p q) ix0 fun a => a.elim0

/-- The two spellings are one array. -/
theorem host_eq (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32))
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b := by
  funext i
  obtain ⟨p, q, rfl⟩ : ∃ (p : Fin A) (q : Fin M), i = ix2 p q := ⟨i 0, i 1, eq_ix2 i⟩
  exact host_apply prec sched X₁ X₂ W b hcat htr hs₁ ht₁ hs₂ ht₂ h1 h2 h0 p q

end Idealize.ShloMosaic.SplitLayer
-- ==== Proof.CellPrep.lean ====
/-
  How the kernel's program prepares its weights before the launch, read at coordinates. The two spatial gates' weight
  matrices `Wf`, `Wi` (one row per output feature, 1024 columns: 512 for each neighbour) are cut into their two column
  ranges, each range transposed, and the two gates' ranges for one neighbour laid side by side: for the range starting at
  column `o`, entry `(k, n)` of the fused matrix is `Wf (n, o + k)` for `n < 512` and `Wi (n − 512, o + k)` after. The two
  biases are laid end to end and recast to one row. The cell's two weight matrices are transposed, its two biases added and
  recast to one row. Rounding a matrix to bf16 is the identity on the extended reals. With these weights the fused spatial
  gates and the four gates of a row are the sums the reference spells with the original matrices.
-/
import proofs.«143091_j83700322664663_2_alg».proof.Proof.Gen.KernelIdeal
import proofs.«143091_j83700322664663_2_alg».proof.Proof.LibSplitLayer
import proofs.«143091_j83700322664663_2_alg».proof.Proof.CellRow
import Idealize.ShloMosaic.Lib.ValueLayout
import Idealize.ShloMosaic.Lib.Pipeline.Value

noncomputable section

namespace Cert.KernelIdeal.Prep

open Cert.KernelIdeal Cert.KernelIdeal.Gen Idealize.ShloMosaic Idealize.ShloMosaic.ValueIdx Cert.Cell

/-- The column range of the two spatial weight matrices starting at column `o`, each transposed, side by side, rounded. -/
def fuse (o : Nat) (hs : S512x1024.Slices ![0, o] S512x512) (Wf Wi : FVec Ideal S512x1024 .f32) : FVec Ideal S512x1024 .bf16 :=
  truncf .bf16 (concatenate S512x1024 1
    [⟨S512x512, transpose S512x512 [1, 0] (extractStridedSlice S512x512 ![0, o] Wf hs) transposes_S512x512_S512x512_1_0⟩,
     ⟨S512x512, transpose S512x512 [1, 0] (extractStridedSlice S512x512 ![0, o] Wi hs) transposes_S512x512_S512x512_1_0⟩]
    concatenates_S512x512_S512x512_S512x1024_d1) bitsLt_bf16_f32

/-- In the fused matrix's first 512 columns: the first gate's weights. -/
theorem fuse_left (o : Nat) (hs : S512x1024.Slices ![0, o] S512x512) (Wf Wi : FVec Ideal S512x1024 .f32) (k q : Fin 512)
    (n : Fin 1024) (hn : n.val = q.val) (hk : o + k.val < 1024) :
    fuse o hs Wf Wi (ix2 k n) = Wf (ix2 q ⟨o + k.val, hk⟩) := by
  obtain rfl : n = Fin.castAdd 512 q := Fin.ext hn
  unfold fuse
  refine (truncf_apply (ψ := .bf16) _ bitsLt_bf16_f32 _).trans ?_
  exact (SplitLayer.concat_cols_left _ _ concatenates_S512x512_S512x512_S512x1024_d1 k q).trans
    (SplitLayer.transpose_cols_ix2 o Wf hs transposes_S512x512_S512x512_1_0 k q hk)

/-- In its last 512 columns: the second gate's. -/
theorem fuse_right (o : Nat) (hs : S512x1024.Slices ![0, o] S512x512) (Wf Wi : FVec Ideal S512x1024 .f32) (k q : Fin 512)
    (n : Fin 1024) (hn : n.val = 512 + q.val) (hk : o + k.val < 1024) :
    fuse o hs Wf Wi (ix2 k n) = Wi (ix2 q ⟨o + k.val, hk⟩) := by
  obtain rfl : n = Fin.natAdd 512 q := Fin.ext hn
  unfold fuse
  refine (truncf_apply (ψ := .bf16) _ bitsLt_bf16_f32 _).trans ?_
  exact (SplitLayer.concat_cols_right _ _ concatenates_S512x512_S512x512_S512x1024_d1 k q).trans
    (SplitLayer.transpose_cols_ix2 o Wi hs transposes_S512x512_S512x512_1_0 k q hk)

/-- The two spatial biases end to end, as one row. -/
def biasS (bf bi : FVec Ideal S512 .f32) : FVec Ideal S1x1024 .f32 :=
  shapeCast S1x1024 (concatenate S1024 0 [⟨S512, bf⟩, ⟨S512, bi⟩] concatenates_S512_S512_S1024_d0) shapeCasts_S1024_S1x1024

theorem biasS_left (bf bi : FVec Ideal S512 .f32) (q : Fin 512) (n : Fin 1024) (hn : n.val = q.val) :
    biasS bf bi (ix2 (0 : Fin 1) n) = bf (ix1 q) := by
  unfold biasS
  refine (shapeCast_a_1a_apply _ _ 0 n).trans ?_
  exact concatenate_pair_apply_left 0 bf bi _ (ix1 n) rfl (ix1 q) fun b => match b with | ⟨0, _⟩ => hn.symm

theorem biasS_right (bf bi : FVec Ideal S512 .f32) (q : Fin 512) (n : Fin 1024) (hn : n.val = 512 + q.val) :
    biasS bf bi (ix2 (0 : Fin 1) n) = bi (ix1 q) := by
  unfold biasS
  refine (shapeCast_a_1a_apply _ _ 0 n).trans ?_
  exact concatenate_pair_apply_right 0 bf bi _ (ix1 n) rfl rfl (ix1 q)
    (fun b hb => match b, hb with | ⟨0, _⟩, hb => absurd rfl hb)
    (show q.val + 512 = n.val by omega)

/-- The input weights transposed and rounded. -/
def wIn (W : FVec Ideal S2048x256 .f32) : FVec Ideal S256x2048 .bf16 :=
  truncf .bf16 (transpose S256x2048 [1, 0] W transposes_S2048x256_S256x2048_1_0) bitsLt_bf16_f32

theorem wIn_apply (W : FVec Ideal S2048x256 .f32) (k : Fin 256) (n : Fin 2048) : wIn W (ix2 k n) = W (ix2 n k) :=
  SplitLayer.transpose_ix2 W transposes_S2048x256_S256x2048_1_0 k n

/-- The hidden-state weights transposed and rounded. -/
def wHid (W : FVec Ideal S2048x512 .f32) : FVec Ideal S512x2048 .bf16 :=
  truncf .bf16 (transpose S512x2048 [1, 0] W transposes_S2048x512_S512x2048_1_0) bitsLt_bf16_f32

theorem wHid_apply (W : FVec Ideal S2048x512 .f32) (k : Fin 512) (n : Fin 2048) : wHid W (ix2 k n) = W (ix2 n k) :=
  SplitLayer.transpose_ix2 W transposes_S2048x512_S512x2048_1_0 k n

/-- The cell's two biases added, as one row. -/
def biasG (b1 b2 : FVec Ideal S2048 .f32) : FVec Ideal S1x2048 .f32 :=
  shapeCast S1x2048 (addf b1 b2) shapeCasts_S2048_S1x2048

theorem biasG_apply (b1 b2 : FVec Ideal S2048 .f32) (n : Fin 2048) :
    biasG b1 b2 (ix2 (0 : Fin 1) n) = b1 (ix1 n) + b2 (ix1 n) :=
  shapeCast_a_1a_apply _ _ 0 n

section
variable (Wf : FVec Ideal S512x1024 .f32) (bf : FVec Ideal S512 .f32) (Wi : FVec Ideal S512x1024 .f32) (bi : FVec Ideal S512 .f32)
  (Wx : FVec Ideal S2048x256 .f32) (b1 : FVec Ideal S2048 .f32) (Wh : FVec Ideal S2048x512 .f32) (b2 : FVec Ideal S2048 .f32)

/-- The weights as the launch finds them, from the program's eight parameter arrays. -/
def prepared : Weights :=
  weightsOf (fuse 0 slices_S512x1024_S512x512_0_0 Wf Wi) (fuse 512 slices_S512x1024_S512x512_0_512 Wf Wi) (biasS bf bi)
    (wIn Wx) (wHid Wh) (biasG b1 b2)

/-- The first spatial gate of a row: its neighbours' states against the two halves of a row of `Wf`. -/
theorem logit_first (r : Row) (q : Fin 512) :
    logit r (prepared Wf bf Wi bi Wx b1 Wh b2) (col 0 q (by norm_num))
      = ((∑ k : Fin 512, r.ha k * Wf (ix2 q (Fin.castAdd 512 k))) + (∑ k : Fin 512, r.hb k * Wf (ix2 q (Fin.natAdd 512 k))))
          + bf (ix1 q) := by
  unfold logit prepared weightsOf
  refine congrArg₂ (· + ·) (congrArg₂ (· + ·) (Finset.sum_congr rfl fun k _ => congrArg (r.ha k * ·) ?_)
    (Finset.sum_congr rfl fun k _ => congrArg (r.hb k * ·) ?_)) ?_
  · exact (fuse_left 0 _ Wf Wi k q _ (Nat.zero_add _) (by have := k.isLt; omega)).trans
      (congrArg Wf (congrArg (ix2 q) (Fin.ext (Nat.zero_add _))))
  · exact fuse_left 512 _ Wf Wi k q _ (Nat.zero_add _) (by have := k.isLt; omega)
  · exact biasS_left bf bi q _ (Nat.zero_add _)

/-- The second spatial gate of a row: the same against `Wi`. -/
theorem logit_second (r : Row) (q : Fin 512) :
    logit r (prepared Wf bf Wi bi Wx b1 Wh b2) (col 512 q (by norm_num))
      = ((∑ k : Fin 512, r.ha k * Wi (ix2 q (Fin.castAdd 512 k))) + (∑ k : Fin 512, r.hb k * Wi (ix2 q (Fin.natAdd 512 k))))
          + bi (ix1 q) := by
  unfold logit prepared weightsOf
  refine congrArg₂ (· + ·) (congrArg₂ (· + ·) (Finset.sum_congr rfl fun k _ => congrArg (r.ha k * ·) ?_)
    (Finset.sum_congr rfl fun k _ => congrArg (r.hb k * ·) ?_)) ?_
  · exact (fuse_right 0 _ Wf Wi k q _ rfl (by have := k.isLt; omega)).trans
      (congrArg Wi (congrArg (ix2 q) (Fin.ext (Nat.zero_add _))))
  · exact fuse_right 512 _ Wf Wi k q _ rfl (by have := k.isLt; omega)
  · exact biasS_right bf bi q _ rfl

/-- The four gates of a row with the prepared weights: the original matrices read row by row, the two biases added. -/
theorem gate_prepared (r : Row) (n : Fin 2048) :
    gate r (prepared Wf bf Wi bi Wx b1 Wh b2) n
      = ((∑ k : Fin 256, r.x k * Wx (ix2 n k))
          + (∑ k : Fin 512, hid r (prepared Wf bf Wi bi Wx b1 Wh b2) k * Wh (ix2 n k))) + (b1 (ix1 n) + b2 (ix1 n)) := by
  unfold gate
  refine congrArg₂ (· + ·) (congrArg₂ (· + ·) (Finset.sum_congr rfl fun k _ => congrArg (r.x k * ·) ?_)
    (Finset.sum_congr rfl fun k _ => congrArg (hid r _ k * ·) ?_)) ?_
  · exact wIn_apply Wx k n
  · exact wHid_apply Wh k n
  · exact biasG_apply b1 b2 n
end

end Cert.KernelIdeal.Prep

end
-- ==== Proof.CellFinal.lean ====
/-
  From the blocks to the whole arrays. The launch runs the body at 32 grid points; at point `t` the five row-wise inputs and
  the two outputs are staged as rows `512·t … 512·t + 511` of their arrays (block index `(t, 0)`), and the six prepared weight
  arrays whole (block index `(0, 0)` at every point). Entry `(p, q)` of what point `t` writes back is therefore the new cell
  (hidden) state of row `512·t + p` of the arguments with the prepared weights; every row lies in exactly the block of the
  point `row / 512`, so the output arrays end as the row function applied to every row.
-/
import proofs.«143091_j83700322664663_2_alg».proof.Proof.Gen.KernelIdeal.Frame
import proofs.«143091_j83700322664663_2_alg».proof.Proof.CellBody
import proofs.«143091_j83700322664663_2_alg».proof.Proof.CellPrep
import Idealize.ShloMosaic.Lib.Pipeline.Value
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx Cert.Cell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The printed index maps, decided over the 32 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

theorem point_lt (t : Fin cfg0.N) : t.val < 32 := lt_of_lt_of_eq t.isLt N_0

/-- Row `p` of point `t`'s block is row `512·t + p` of the array. -/
abbrev blkRow (t : Fin cfg0.N) (p : Fin 512) : Fin 16384 :=
  ⟨512 * t.val + p.val, by have := point_lt t; have := p.isLt; omega⟩

/-! ## The prepared weight arrays as the launch finds them -/

theorem V_main_v9 (c : Dev nD) : (V m c main_v9 : FVec Ideal S512x1024 .bf16) = Prep.fuse 0 slices_S512x1024_S512x512_0_0 (m ((c : Thread nD τ).loc main_arg5)) (m ((c : Thread nD τ).loc main_arg7)) := by
  dsimp only [Gen.V, Gen.hostOps0]
  after_results
  rfl

theorem V_main_v11 (c : Dev nD) : (V m c main_v11 : FVec Ideal S512x1024 .bf16) = Prep.fuse 512 slices_S512x1024_S512x512_0_512 (m ((c : Thread nD τ).loc main_arg5)) (m ((c : Thread nD τ).loc main_arg7)) := by
  dsimp only [Gen.V, Gen.hostOps0]
  after_results
  rfl

theorem V_main_v13 (c : Dev nD) : (V m c main_v13 : FVec Ideal S1x1024 .f32) = Prep.biasS (m ((c : Thread nD τ).loc main_arg6)) (m ((c : Thread nD τ).loc main_arg8)) := by
  dsimp only [Gen.V, Gen.hostOps0]
  after_results
  rfl

theorem V_main_v15 (c : Dev nD) : (V m c main_v15 : FVec Ideal S256x2048 .bf16) = Prep.wIn (m ((c : Thread nD τ).loc main_arg9)) := by
  dsimp only [Gen.V, Gen.hostOps0]
  after_results
  rfl

theorem V_main_v17 (c : Dev nD) : (V m c main_v17 : FVec Ideal S512x2048 .bf16) = Prep.wHid (m ((c : Thread nD τ).loc main_arg11)) := by
  dsimp only [Gen.V, Gen.hostOps0]
  after_results
  rfl

theorem V_main_v19 (c : Dev nD) : (V m c main_v19 : FVec Ideal S1x2048 .f32) = Prep.biasG (m ((c : Thread nD τ).loc main_arg10)) (m ((c : Thread nD τ).loc main_arg12)) := by
  dsimp only [Gen.V, Gen.hostOps0]
  after_results
  rfl

/-! ## The input blocks read at coordinates -/

theorem iblk0 (c : Dev nD) (t : Fin cfg0.N) (p : Fin 512) (k : Fin 256) :
    (iblk m c 0 t : FVec Ideal S512x256 .f32) (ix2 p k)
      = (m ((c : Thread nD τ).loc main_arg0) : FVec Ideal S16384x256 .f32) (ix2 (blkRow t p) k) := by
  obtain ⟨e0, e1⟩ := idx0 t
  unfold iblk
  rw [View.read_apply]
  show V m c main_arg0 _ = m (c.tc.loc main_arg0) _
  refine (congrFun (V_main_arg0 m c) _).trans (congrArg _ ?_)
  funext a
  apply Fin.ext
  match a with
  | ⟨0, _⟩ => show win0_0.index t (0 : Fin 2) * 512 + 1 * p.val = 512 * t.val + p.val; rw [e0]; omega
  | ⟨1, _⟩ => show win0_0.index t (1 : Fin 2) * 256 + 1 * k.val = k.val; rw [e1]; omega

theorem iblk1 (c : Dev nD) (t : Fin cfg0.N) (p : Fin 512) (k : Fin 512) :
    (iblk m c 1 t : FVec Ideal S512x512 .f32) (ix2 p k)
      = (m ((c : Thread nD τ).loc main_arg1) : FVec Ideal S16384x512 .f32) (ix2 (blkRow t p) k) := by
  obtain ⟨e0, e1⟩ := idx1 t
  unfold iblk
  rw [View.read_apply]
  show V m c main_arg1 _ = m (c.tc.loc main_arg1) _
  refine (congrFun (V_main_arg1 m c) _).trans (congrArg _ ?_)
  funext a
  apply Fin.ext
  match a with
  | ⟨0, _⟩ => show win0_1.index t (0 : Fin 2) * 512 + 1 * p.val = 512 * t.val + p.val; rw [e0]; omega
  | ⟨1, _⟩ => show win0_1.index t (1 : Fin 2) * 512 + 1 * k.val = k.val; rw [e1]; omega

theorem iblk2 (c : Dev nD) (t : Fin cfg0.N) (p : Fin 512) (k : Fin 512) :
    (iblk m c 2 t : FVec Ideal S512x512 .f32) (ix2 p k)
      = (m ((c : Thread nD τ).loc main_arg2) : FVec Ideal S16384x512 .f32) (ix2 (blkRow t p) k) := by
  obtain ⟨e0, e1⟩ := idx2 t
  unfold iblk
  rw [View.read_apply]
  show V m c main_arg2 _ = m (c.tc.loc main_arg2) _
  refine (congrFun (V_main_arg2 m c) _).trans (congrArg _ ?_)
  funext a
  apply Fin.ext
  match a with
  | ⟨0, _⟩ => show win0_2.index t (0 : Fin 2) * 512 + 1 * p.val = 512 * t.val + p.val; rw [e0]; omega
  | ⟨1, _⟩ => show win0_2.index t (1 : Fin 2) * 512 + 1 * k.val = k.val; rw [e1]; omega

theorem iblk3 (c : Dev nD) (t : Fin cfg0.N) (p : Fin 512) (k : Fin 512) :
    (iblk m c 3 t : FVec Ideal S512x512 .f32) (ix2 p k)
      = (m ((c : Thread nD τ).loc main_arg3) : FVec Ideal S16384x512 .f32) (ix2 (blkRow t p) k) := by
  obtain ⟨e0, e1⟩ := idx3 t
  unfold iblk
  rw [View.read_apply]
  show V m c main_arg3 _ = m (c.tc.loc main_arg3) _
  refine (congrFun (V_main_arg3 m c) _).trans (congrArg _ ?_)
  funext a
  apply Fin.ext
  match a with
  | ⟨0, _⟩ => show win0_3.index t (0 : Fin 2) * 512 + 1 * p.val = 512 * t.val + p.val; rw [e0]; omega
  | ⟨1, _⟩ => show win0_3.index t (1 : Fin 2) * 512 + 1 * k.val = k.val; rw [e1]; omega

theorem iblk4 (c : Dev nD) (t : Fin cfg0.N) (p : Fin 512) (k : Fin 512) :
    (iblk m c 4 t : FVec Ideal S512x512 .f32) (ix2 p k)
      = (m ((c : Thread nD τ).loc main_arg4) : FVec Ideal S16384x512 .f32) (ix2 (blkRow t p) k) := by
  obtain ⟨e0, e1⟩ := idx4 t
  unfold iblk
  rw [View.read_apply]
  show V m c main_arg4 _ = m (c.tc.loc main_arg4) _
  refine (congrFun (V_main_arg4 m c) _).trans (congrArg _ ?_)
  funext a
  apply Fin.ext
  match a with
  | ⟨0, _⟩ => show win0_4.index t (0 : Fin 2) * 512 + 1 * p.val = 512 * t.val + p.val; rw [e0]; omega
  | ⟨1, _⟩ => show win0_4.index t (1 : Fin 2) * 512 + 1 * k.val = k.val; rw [e1]; omega

theorem iblk5 (c : Dev nD) (t : Fin cfg0.N) (k : Fin 512) (n : Fin 1024) :
    (iblk m c 5 t : FVec Ideal S512x1024 .bf16) (ix2 k n) = Prep.fuse 0 slices_S512x1024_S512x512_0_0 (m ((c : Thread nD τ).loc main_arg5)) (m ((c : Thread nD τ).loc main_arg7)) (ix2 k n) := by
  obtain ⟨e0, e1⟩ := idx5 t
  unfold iblk
  rw [View.read_apply]
  show V m c main_v9 _ = _
  refine (congrFun (V_main_v9 m c) _).trans (congrArg _ ?_)
  funext a
  apply Fin.ext
  match a with
  | ⟨0, _⟩ => show win0_5.index t (0 : Fin 2) * 512 + 1 * k.val = k.val; rw [e0]; omega
  | ⟨1, _⟩ => show win0_5.index t (1 : Fin 2) * 1024 + 1 * n.val = n.val; rw [e1]; omega

theorem iblk6 (c : Dev nD) (t : Fin cfg0.N) (k : Fin 512) (n : Fin 1024) :
    (iblk m c 6 t : FVec Ideal S512x1024 .bf16) (ix2 k n) = Prep.fuse 512 slices_S512x1024_S512x512_0_512 (m ((c : Thread nD τ).loc main_arg5)) (m ((c : Thread nD τ).loc main_arg7)) (ix2 k n) := by
  obtain ⟨e0, e1⟩ := idx6 t
  unfold iblk
  rw [View.read_apply]
  show V m c main_v11 _ = _
  refine (congrFun (V_main_v11 m c) _).trans (congrArg _ ?_)
  funext a
  apply Fin.ext
  match a with
  | ⟨0, _⟩ => show win0_6.index t (0 : Fin 2) * 512 + 1 * k.val = k.val; rw [e0]; omega
  | ⟨1, _⟩ => show win0_6.index t (1 : Fin 2) * 1024 + 1 * n.val = n.val; rw [e1]; omega

theorem iblk7 (c : Dev nD) (t : Fin cfg0.N) (k : Fin 1) (n : Fin 1024) :
    (iblk m c 7 t : FVec Ideal S1x1024 .f32) (ix2 k n) = Prep.biasS (m ((c : Thread nD τ).loc main_arg6)) (m ((c : Thread nD τ).loc main_arg8)) (ix2 k n) := by
  obtain ⟨e0, e1⟩ := idx7 t
  unfold iblk
  rw [View.read_apply]
  show V m c main_v13 _ = _
  refine (congrFun (V_main_v13 m c) _).trans (congrArg _ ?_)
  funext a
  apply Fin.ext
  match a with
  | ⟨0, _⟩ => show win0_7.index t (0 : Fin 2) * 1 + 1 * k.val = k.val; rw [e0]; omega
  | ⟨1, _⟩ => show win0_7.index t (1 : Fin 2) * 1024 + 1 * n.val = n.val; rw [e1]; omega

theorem iblk8 (c : Dev nD) (t : Fin cfg0.N) (k : Fin 256) (n : Fin 2048) :
    (iblk m c 8 t : FVec Ideal S256x2048 .bf16) (ix2 k n) = Prep.wIn (m ((c : Thread nD τ).loc main_arg9)) (ix2 k n) := by
  obtain ⟨e0, e1⟩ := idx8 t
  unfold iblk
  rw [View.read_apply]
  show V m c main_v15 _ = _
  refine (congrFun (V_main_v15 m c) _).trans (congrArg _ ?_)
  funext a
  apply Fin.ext
  match a with
  | ⟨0, _⟩ => show win0_8.index t (0 : Fin 2) * 256 + 1 * k.val = k.val; rw [e0]; omega
  | ⟨1, _⟩ => show win0_8.index t (1 : Fin 2) * 2048 + 1 * n.val = n.val; rw [e1]; omega

theorem iblk9 (c : Dev nD) (t : Fin cfg0.N) (k : Fin 512) (n : Fin 2048) :
    (iblk m c 9 t : FVec Ideal S512x2048 .bf16) (ix2 k n) = Prep.wHid (m ((c : Thread nD τ).loc main_arg11)) (ix2 k n) := by
  obtain ⟨e0, e1⟩ := idx9 t
  unfold iblk
  rw [View.read_apply]
  show V m c main_v17 _ = _
  refine (congrFun (V_main_v17 m c) _).trans (congrArg _ ?_)
  funext a
  apply Fin.ext
  match a with
  | ⟨0, _⟩ => show win0_9.index t (0 : Fin 2) * 512 + 1 * k.val = k.val; rw [e0]; omega
  | ⟨1, _⟩ => show win0_9.index t (1 : Fin 2) * 2048 + 1 * n.val = n.val; rw [e1]; omega

theorem iblk10 (c : Dev nD) (t : Fin cfg0.N) (k : Fin 1) (n : Fin 2048) :
    (iblk m c 10 t : FVec Ideal S1x2048 .f32) (ix2 k n) = Prep.biasG (m ((c : Thread nD τ).loc main_arg10)) (m ((c : Thread nD τ).loc main_arg12)) (ix2 k n) := by
  obtain ⟨e0, e1⟩ := idx10 t
  unfold iblk
  rw [View.read_apply]
  show V m c main_v19 _ = _
  refine (congrFun (V_main_v19 m c) _).trans (congrArg _ ?_)
  funext a
  apply Fin.ext
  match a with
  | ⟨0, _⟩ => show win0_10.index t (0 : Fin 2) * 1 + 1 * k.val = k.val; rw [e0]; omega
  | ⟨1, _⟩ => show win0_10.index t (1 : Fin 2) * 2048 + 1 * n.val = n.val; rw [e1]; omega

/-! ## What each point writes back -/

/-- Window 0's block at point `t`, at its literal shape. -/
abbrev b0 (c : Dev nD) (t : Fin cfg0.N) : FVec Ideal S512x256 .f32 := iblk m c 0 t
/-- Window 1's block at point `t`, at its literal shape. -/
abbrev b1 (c : Dev nD) (t : Fin cfg0.N) : FVec Ideal S512x512 .f32 := iblk m c 1 t
/-- Window 2's block at point `t`, at its literal shape. -/
abbrev b2 (c : Dev nD) (t : Fin cfg0.N) : FVec Ideal S512x512 .f32 := iblk m c 2 t
/-- Window 3's block at point `t`, at its literal shape. -/
abbrev b3 (c : Dev nD) (t : Fin cfg0.N) : FVec Ideal S512x512 .f32 := iblk m c 3 t
/-- Window 4's block at point `t`, at its literal shape. -/
abbrev b4 (c : Dev nD) (t : Fin cfg0.N) : FVec Ideal S512x512 .f32 := iblk m c 4 t
/-- Window 5's block at point `t`, at its literal shape. -/
abbrev b5 (c : Dev nD) (t : Fin cfg0.N) : FVec Ideal S512x1024 .bf16 := iblk m c 5 t
/-- Window 6's block at point `t`, at its literal shape. -/
abbrev b6 (c : Dev nD) (t : Fin cfg0.N) : FVec Ideal S512x1024 .bf16 := iblk m c 6 t
/-- Window 7's block at point `t`, at its literal shape. -/
abbrev b7 (c : Dev nD) (t : Fin cfg0.N) : FVec Ideal S1x1024 .f32 := iblk m c 7 t
/-- Window 8's block at point `t`, at its literal shape. -/
abbrev b8 (c : Dev nD) (t : Fin cfg0.N) : FVec Ideal S256x2048 .bf16 := iblk m c 8 t
/-- Window 9's block at point `t`, at its literal shape. -/
abbrev b9 (c : Dev nD) (t : Fin cfg0.N) : FVec Ideal S512x2048 .bf16 := iblk m c 9 t
/-- Window 10's block at point `t`, at its literal shape. -/
abbrev b10 (c : Dev nD) (t : Fin cfg0.N) : FVec Ideal S1x2048 .f32 := iblk m c 10 t

/-- The weights as the launch finds them: the program's eight parameter arrays, prepared. -/
def launchWeights (c : Dev nD) : Weights :=
  Prep.prepared (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))

/-- The new cell state of every row of the arguments. -/
def cellArr (c : Dev nD) : FVec Ideal S16384x512 .f32 :=
  newCell (m ((c : Thread nD τ).loc main_arg0)) (m ((c : Thread nD τ).loc main_arg1)) (m ((c : Thread nD τ).loc main_arg2)) (m ((c : Thread nD τ).loc main_arg3)) (m ((c : Thread nD τ).loc main_arg4)) (launchWeights m c)

/-- The new hidden state of every row of the arguments. -/
def hiddenArr (c : Dev nD) : FVec Ideal S16384x512 .f32 :=
  newHidden (m ((c : Thread nD τ).loc main_arg0)) (m ((c : Thread nD τ).loc main_arg1)) (m ((c : Thread nD τ).loc main_arg2)) (m ((c : Thread nD τ).loc main_arg3)) (m ((c : Thread nD τ).loc main_arg4)) (launchWeights m c)

/-- Row `p` of point `t`'s blocks is row `512·t + p` of the arguments. -/
theorem row_eq (c : Dev nD) (t : Fin cfg0.N) (p : Fin 512) :
    rowOf (b0 m c t) (b1 m c t) (b2 m c t) (b3 m c t) (b4 m c t) p
      = rowOf (A := 16384) (m ((c : Thread nD τ).loc main_arg0)) (m ((c : Thread nD τ).loc main_arg1)) (m ((c : Thread nD τ).loc main_arg2)) (m ((c : Thread nD τ).loc main_arg3)) (m ((c : Thread nD τ).loc main_arg4)) (blkRow t p) :=
  rowOf_congr _ _ _ _ _ _ _ _ _ _ p (blkRow t p) (iblk0 m c t p) (iblk1 m c t p) (iblk2 m c t p) (iblk3 m c t p) (iblk4 m c t p)

/-- The weight blocks of every point are the prepared weights. -/
theorem weights_eq (c : Dev nD) (t : Fin cfg0.N) :
    weightsOf (b5 m c t) (b6 m c t) (b7 m c t) (b8 m c t) (b9 m c t) (b10 m c t) = launchWeights m c :=
  weightsOf_congr _ _ _ _ _ _ _ _ _ _ _ _ (iblk5 m c t) (iblk6 m c t) (fun n => iblk7 m c t 0 n) (iblk8 m c t) (iblk9 m c t)
    (fun n => iblk10 m c t 0 n)

/-- WHAT POINT `t` WRITES BACK to output window 11: block `t` of the array of every row's new hidden state. -/
theorem flushed11 (c : Dev nD) (t : Fin cfg0.N) :
    (dats m 0 c).flushed 11 t = ((cfg0.win 11).blk t).view.read (Elt Ideal) (hiddenArr m c) := by
  obtain ⟨e0, e1⟩ := idx11 t
  show (cfg0.win 11).cut (grid0.coords t) ((dats m 0 c).after 11 t) = _
  rw [after0_11]
  unfold out0_11
  rw [View.canon_unit_zero hz]
  simp only [View.ld_unit_zero (S := S512x512) hz, View.ld_unit_zero (S := S512x1024) hz, View.ld_unit_zero (S := S1x1024) hz,
    View.ld_unit_zero (S := S512x256) hz, View.ld_unit_zero (S := S256x2048) hz, View.ld_unit_zero (S := S512x2048) hz,
    View.ld_unit_zero (S := S1x2048) hz]
  funext j
  obtain ⟨p, q, rfl⟩ : ∃ (p : Fin 512) (q : Fin 512), j = ix2 p q := ⟨j 0, j 1, eq_ix2 j⟩
  show k0_pay3 (F := Ideal) (k0_pay5 (b3 m c t) (b4 m c t) (b5 m c t) (b6 m c t) (b7 m c t) (b2 m c t))
      (k0_pay6 (b3 m c t) (b4 m c t) (b5 m c t) (b6 m c t) (b7 m c t) (b1 m c t) (b0 m c t) (b8 m c t) (b9 m c t)) (b10 m c t) (ix2 p q)
    = hiddenArr m c (((cfg0.win 11).blk t).view.emb (ix2 p q))
  refine (Body.hnew_body (b3 m c t) (b4 m c t) (b5 m c t) (b6 m c t) (b7 m c t) (b1 m c t) (b0 m c t) (b8 m c t) (b9 m c t) (b10 m c t) (b2 m c t) p q).trans ?_
  rw [row_eq, weights_eq]
  have hemb : ((cfg0.win 11).blk t).view.emb (ix2 p q) = ix2 (blkRow t p) q := by
    funext a
    apply Fin.ext
    match a with
    | ⟨0, _⟩ => show win0_11.index t (0 : Fin 2) * 512 + 1 * p.val = 512 * t.val + p.val; rw [e0]; omega
    | ⟨1, _⟩ => show win0_11.index t (1 : Fin 2) * 512 + 1 * q.val = q.val; rw [e1]; omega
  rw [hemb]
  exact (newHidden_ix2 _ _ _ _ _ _ (blkRow t p) q).symm

/-- An index of the array is in point `t`'s block iff each coordinate is in the block's range on its axis. -/
theorem mem_blk11 (t : Fin cfg0.N) (i : S16384x512.Idx) :
    i ∈ ((cfg0.win 11).blk t).view.set ↔ ∀ a : Fin 2, win0_11.index t a * S512x512.size a ≤ (i a).val
      ∧ (i a).val < win0_11.index t a * S512x512.size a + S512x512.size a := by
  show i ∈ ((View.whole main_v20_0).slice (win0_11.rect t)).set ↔ _
  rw [View.set_slice_whole, Rect.mem_set_unit]
  exact Iff.rfl

/-- Every row of the array lies in the block of the point `row / 512`. -/
theorem cover11 (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  obtain ⟨t, ht⟩ : ∃ t : Fin cfg0.N, t.val = (i 0).val / 512 :=
    ⟨⟨(i 0).val / 512, lt_of_lt_of_eq (by omega : (i 0).val / 512 < 32) N_0.symm⟩, rfl⟩
  obtain ⟨e0, e1⟩ := idx11 t
  refine ⟨t, flush0_11 t, ?_⟩
  rw [mem_blk11]
  intro a
  match a with
  | ⟨0, _⟩ =>
    show win0_11.index t (0 : Fin 2) * 512 ≤ (i 0).val ∧ (i 0).val < win0_11.index t (0 : Fin 2) * 512 + 512
    rw [e0, ht]; omega
  | ⟨1, _⟩ =>
    show win0_11.index t (1 : Fin 2) * 512 ≤ (i 1).val ∧ (i 1).val < win0_11.index t (1 : Fin 2) * 512 + 512
    rw [e1]; omega

/-- THE ARRAY after the run. -/
theorem final11 (c : Dev nD) : (dats m 0 c).arrAt 11 cfg0.N = hiddenArr m c :=
  (dats m 0 c).arrAt_eq_of_cover 11 (hiddenArr m c) (fun t _ => flushed11 m c t) cover11

/-- WHAT POINT `t` WRITES BACK to output window 12: block `t` of the array of every row's new cell state. -/
theorem flushed12 (c : Dev nD) (t : Fin cfg0.N) :
    (dats m 0 c).flushed 12 t = ((cfg0.win 12).blk t).view.read (Elt Ideal) (cellArr m c) := by
  obtain ⟨e0, e1⟩ := idx12 t
  show (cfg0.win 12).cut (grid0.coords t) ((dats m 0 c).after 12 t) = _
  rw [after0_12]
  unfold out0_12
  rw [View.canon_unit_zero hz]
  simp only [View.ld_unit_zero (S := S512x512) hz, View.ld_unit_zero (S := S512x1024) hz, View.ld_unit_zero (S := S1x1024) hz,
    View.ld_unit_zero (S := S512x256) hz, View.ld_unit_zero (S := S256x2048) hz, View.ld_unit_zero (S := S512x2048) hz,
    View.ld_unit_zero (S := S1x2048) hz]
  funext j
  obtain ⟨p, q, rfl⟩ : ∃ (p : Fin 512) (q : Fin 512), j = ix2 p q := ⟨j 0, j 1, eq_ix2 j⟩
  show k0_pay2 (F := Ideal) (k0_pay5 (b3 m c t) (b4 m c t) (b5 m c t) (b6 m c t) (b7 m c t) (b2 m c t))
      (k0_pay6 (b3 m c t) (b4 m c t) (b5 m c t) (b6 m c t) (b7 m c t) (b1 m c t) (b0 m c t) (b8 m c t) (b9 m c t)) (b10 m c t) (ix2 p q)
    = cellArr m c (((cfg0.win 12).blk t).view.emb (ix2 p q))
  refine (Body.cnew_body (b3 m c t) (b4 m c t) (b5 m c t) (b6 m c t) (b7 m c t) (b1 m c t) (b0 m c t) (b8 m c t) (b9 m c t) (b10 m c t) (b2 m c t) p q).trans ?_
  rw [row_eq, weights_eq]
  have hemb : ((cfg0.win 12).blk t).view.emb (ix2 p q) = ix2 (blkRow t p) q := by
    funext a
    apply Fin.ext
    match a with
    | ⟨0, _⟩ => show win0_12.index t (0 : Fin 2) * 512 + 1 * p.val = 512 * t.val + p.val; rw [e0]; omega
    | ⟨1, _⟩ => show win0_12.index t (1 : Fin 2) * 512 + 1 * q.val = q.val; rw [e1]; omega
  rw [hemb]
  exact (newCell_ix2 _ _ _ _ _ _ (blkRow t p) q).symm

/-- An index of the array is in point `t`'s block iff each coordinate is in the block's range on its axis. -/
theorem mem_blk12 (t : Fin cfg0.N) (i : S16384x512.Idx) :
    i ∈ ((cfg0.win 12).blk t).view.set ↔ ∀ a : Fin 2, win0_12.index t a * S512x512.size a ≤ (i a).val
      ∧ (i a).val < win0_12.index t a * S512x512.size a + S512x512.size a := by
  show i ∈ ((View.whole main_v20_1).slice (win0_12.rect t)).set ↔ _
  rw [View.set_slice_whole, Rect.mem_set_unit]
  exact Iff.rfl

/-- Every row of the array lies in the block of the point `row / 512`. -/
theorem cover12 (i : S16384x512.Idx) :
    ∃ t : Fin cfg0.N, (cfg0.win 12).flush t = true ∧ i ∈ ((cfg0.win 12).blk t).view.set := by
  have hi0 : (i 0).val < 16384 := (i 0).isLt
  have hi1 : (i 1).val < 512 := (i 1).isLt
  obtain ⟨t, ht⟩ : ∃ t : Fin cfg0.N, t.val = (i 0).val / 512 :=
    ⟨⟨(i 0).val / 512, lt_of_lt_of_eq (by omega : (i 0).val / 512 < 32) N_0.symm⟩, rfl⟩
  obtain ⟨e0, e1⟩ := idx12 t
  refine ⟨t, flush0_12 t, ?_⟩
  rw [mem_blk12]
  intro a
  match a with
  | ⟨0, _⟩ =>
    show win0_12.index t (0 : Fin 2) * 512 ≤ (i 0).val ∧ (i 0).val < win0_12.index t (0 : Fin 2) * 512 + 512
    rw [e0, ht]; omega
  | ⟨1, _⟩ =>
    show win0_12.index t (1 : Fin 2) * 512 ≤ (i 1).val ∧ (i 1).val < win0_12.index t (1 : Fin 2) * 512 + 512
    rw [e1]; omega

/-- THE ARRAY after the run. -/
theorem final12 (c : Dev nD) : (dats m 0 c).arrAt 12 cfg0.N = cellArr m c :=
  (dats m 0 c).arrAt_eq_of_cover 12 (cellArr m c) (fun t _ => flushed12 m c t) cover12

/-! ## The run, read -/

/-- Every weakly fair execution of the kernel's program ends with its two result arrays at the new hidden and the new cell
    state of every row of the arguments, and the arguments as launched: the frame run's post, its two output arrays by
    `final11` / `final12`, a staged argument by the library's `Dat.arrAt_in`, an unstaged one by the post's second clause. -/
theorem run : θ_run defs (onTc (τ := τ) (main (F := Ideal))) ⟨m, fun _ => 0, ρ⟩ fun r => ∀ c : Dev nD,
      r.2.mem ((c : Thread nD τ).loc main_v20_0) = hiddenArr m c
      ∧ r.2.mem ((c : Thread nD τ).loc main_v20_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 11).trans (final11 m c),
      ((h c).1 12).trans (final12 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Cert.KernelIdeal.Final

end
-- ==== Proof.LibSplitDot.lean ====
/-
  Three readings of host operations over the extended reals, at an output index given by coordinates.
  `split_dot`: rows that come in two parts `X₁` (`K₁` columns) and `X₂` (`K₂` columns), laid side by side and multiplied in ONE
  `dot_general` by the transpose of a matrix `W` with one row per output feature and `K₁ + K₂` columns, give at `(p, q)`
    Σ_{k < K₁} X₁(p,k)·W(q,k) + Σ_{k < K₂} X₂(p,k)·W(q,K₁+k):
  a sum over `Fin (K₁ + K₂)` is the sum over its first `K₁` positions plus the sum over the remaining `K₂`, in any commutative
  additive monoid, so nothing is asked of the entries.
  `dot_transposed`: rows multiplied by the transpose of `W` give `Σ_k X(p,k)·W(q,k)`.
  `sigmoid_host`: the logistic function spelt as `1 / (1 + exp (−x))` in the host's operations, with the f32 word of 1.0 for
  both ones, is `Ideal.logistic x` on every extended real (the quotient's and the exponential's conventions at ±∞ are the
  definition's own).
-/
import Idealize.ShloMosaic.PureOps.Ideal.Laws
import Idealize.ShloMosaic.Lib.ValueIdx
import Idealize.ShloMosaic.Lib.IdealHost
import proofs.«143091_j83700322664663_2_alg».proof.Proof.LibPlainDot
import proofs.«143091_j83700322664663_2_alg».proof.Proof.LibSplitLayer

namespace Idealize.ShloMosaic.SplitDot

open Idealize.ShloMosaic.ValueIdx

variable {A K₁ K₂ K M : Nat}

/-- Rows in two parts, side by side, against a transposed weight matrix: the two partial sums. -/
theorem split_dot (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩) (p : Fin A) (q : Fin M) :
    FloatOps.dotGeneral (DotDims.plain A (K₁ + K₂) M) prec sched
        (concatenate ⟨2, ![A, K₁ + K₂]⟩ 1 [⟨⟨2, ![A, K₁]⟩, X₁⟩, ⟨⟨2, ![A, K₂]⟩, X₂⟩] hcat)
        (transpose ⟨2, ![K₁ + K₂, M]⟩ [1, 0] W htr) (ix2 p q)
      = (∑ k : Fin K₁, X₁ (ix2 p k) * W (ix2 q (Fin.castAdd K₂ k))) + (∑ k : Fin K₂, X₂ (ix2 p k) * W (ix2 q (Fin.natAdd K₁ k))) := by
  refine (PlainDot.dotGeneral_apply_ix2 prec sched _ _ p q).trans ?_
  rw [Fin.sum_univ_add]
  refine congrArg₂ (· + ·) (Finset.sum_congr rfl fun k _ => ?_) (Finset.sum_congr rfl fun k _ => ?_)
  · exact congrArg₂ (· * ·) (SplitLayer.concat_cols_left X₁ X₂ hcat p k) (SplitLayer.transpose_ix2 W htr (Fin.castAdd K₂ k) q)
  · exact congrArg₂ (· * ·) (SplitLayer.concat_cols_right X₁ X₂ hcat p k) (SplitLayer.transpose_ix2 W htr (Fin.natAdd K₁ k) q)

/-- Rows against a transposed weight matrix: the matrix read row by row. -/
theorem dot_transposed (prec : Option ContractPrecision) (sched : HostSchedule)
    (X : FVec Ideal ⟨2, ![A, K]⟩ .f32) (W : FVec Ideal ⟨2, ![M, K]⟩ .f32)
    (htr : (⟨2, ![M, K]⟩ : Shape).Transposes [1, 0] ⟨2, ![K, M]⟩) (p : Fin A) (q : Fin M) :
    FloatOps.dotGeneral (DotDims.plain A K M) prec sched X (transpose ⟨2, ![K, M]⟩ [1, 0] W htr) (ix2 p q)
      = ∑ k : Fin K, X (ix2 p k) * W (ix2 q k) :=
  (PlainDot.dotGeneral_apply_ix2 prec sched _ _ p q).trans
    (Finset.sum_congr rfl fun k _ => congrArg (X (ix2 p k) * ·) (SplitLayer.transpose_ix2 W htr k q))

/-- The host's `1 / (1 + exp (−x))` with the f32 word of 1.0 is the logistic function. -/
theorem sigmoid_host (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  rw [Ideal.ofBits_def, Ideal.ofBits_one_f32]
  rfl

end Idealize.ShloMosaic.SplitDot
-- ==== Proof.CellRef.lean ====
/-
  The reference, stage by stage, at one entry `(r, q)`: each stage is the row function of row `r` (Cert.Cell, CellRow.lean) with
  the weights in the arrangement the kernel's program prepares them (CellPrep.lean). The reference lays the two neighbours'
  states side by side and multiplies by the transposed spatial matrix in one product — the sum over 1024 columns splits
  into the neighbours' two sums —, spells the logistic function as `1 / (1 + exp (−x))`, and adds its two cell biases one
  after the other around the second product where the kernel adds their sum at the end:
    ((A + b₁) + B) + b₂ = (A + B) + (b₁ + b₂)
  by associativity and commutativity of the extended reals' addition alone, so no entry has to be finite.
-/
import proofs.«143091_j83700322664663_2_alg».proof.Proof.Gen.ReferenceIdeal.Read
import proofs.«143091_j83700322664663_2_alg».proof.Proof.CellPrep
import proofs.«143091_j83700322664663_2_alg».proof.Proof.LibSplitDot

noncomputable section

namespace Cert.ReferenceIdeal.RefCell

open Cert.ReferenceIdeal Cert.ReferenceIdeal.Gen Cert.ReferenceIdeal.Read Idealize.ShloMosaic Idealize.ShloMosaic.ValueIdx Cert.Cell

theorem dotS : dot_S16384x1024_S1024x512_S16384x512_1_0_0_1_n_n = DotDims.plain 16384 (512 + 512) 512 := rfl
theorem dotX : dot_S16384x256_S256x2048_S16384x2048_1_0_0_1_n_n = DotDims.plain 16384 256 2048 := rfl
theorem dotH : dot_S16384x512_S512x2048_S16384x2048_1_0_0_1_n_n = DotDims.plain 16384 512 2048 := rfl

variable (x0 : FVec Ideal S16384x256 .f32) (x1 x2 x3 x4 : FVec Ideal S16384x512 .f32) (x5 : FVec Ideal S512x1024 .f32)
  (x6 : FVec Ideal S512 .f32) (x7 : FVec Ideal S512x1024 .f32) (x8 : FVec Ideal S512 .f32) (x9 : FVec Ideal S2048x256 .f32)
  (x10 : FVec Ideal S2048 .f32) (x11 : FVec Ideal S2048x512 .f32) (x12 : FVec Ideal S2048 .f32)

/-- The weights, in the arrangement the kernel's program prepares them. -/
abbrev W : Weights := Cert.KernelIdeal.Prep.prepared x5 x6 x7 x8 x9 x10 x11 x12

/-- Row `r` of the five row-wise arguments. -/
abbrev R (r : Fin 16384) : Row := rowOf x0 x1 x2 x3 x4 r

/-- The first spatial gate before the logistic function. -/
theorem v5_at (r : Fin 16384) (q : Fin 512) :
    val_main_v5 (F := Ideal) x3 x4 x5 x6 (ix2 r q) = logit (R x0 x1 x2 x3 x4 r) (W x5 x6 x7 x8 x9 x10 x11 x12) (col 0 q (by norm_num)) := by
  refine Eq.trans ?_ (Cert.KernelIdeal.Prep.logit_first x5 x6 x7 x8 x9 x10 x11 x12 (R x0 x1 x2 x3 x4 r) q).symm
  unfold val_main_v5 val_main_v2 val_main_v4 val_main_v3 val_main_v0 val_main_v1
  rw [dotS]
  refine (addf_apply _ _ _).trans (congrArg₂ (· + ·) ?_ (Affine.bias_rows_apply x6 _ _ r q))
  exact SplitDot.split_dot none _ x3 x4 x5 _ _ r q

/-- The second spatial gate before the logistic function. -/
theorem v16_at (r : Fin 16384) (q : Fin 512) :
    val_main_v16 (F := Ideal) x3 x4 x7 x8 (ix2 r q) = logit (R x0 x1 x2 x3 x4 r) (W x5 x6 x7 x8 x9 x10 x11 x12) (col 512 q (by norm_num)) := by
  refine Eq.trans ?_ (Cert.KernelIdeal.Prep.logit_second x5 x6 x7 x8 x9 x10 x11 x12 (R x0 x1 x2 x3 x4 r) q).symm
  unfold val_main_v16 val_main_v13 val_main_v15 val_main_v14 val_main_v0 val_main_v12
  rw [dotS]
  refine (addf_apply _ _ _).trans (congrArg₂ (· + ·) ?_ (Affine.bias_rows_apply x8 _ _ r q))
  exact SplitDot.split_dot none _ x3 x4 x7 _ _ r q

theorem v11_at (r : Fin 16384) (q : Fin 512) :
    val_main_v11 (F := Ideal) x3 x4 x5 x6 (ix2 r q) = Ideal.logistic (logit (R x0 x1 x2 x3 x4 r) (W x5 x6 x7 x8 x9 x10 x11 x12) (col 0 q (by norm_num))) := by
  rw [val_main_v11_apply, val_main_v10_apply, val_main_cst_0_apply, val_main_v9_apply, val_main_v8_apply, val_main_cst_apply,
    val_main_v7_apply, val_main_v6_apply]
  exact (SplitDot.sigmoid_host _).trans (congrArg Ideal.logistic (v5_at x0 x1 x2 x3 x4 x5 x6 x7 x8 x9 x10 x11 x12 r q))

theorem v22_at (r : Fin 16384) (q : Fin 512) :
    val_main_v22 (F := Ideal) x3 x4 x7 x8 (ix2 r q) = Ideal.logistic (logit (R x0 x1 x2 x3 x4 r) (W x5 x6 x7 x8 x9 x10 x11 x12) (col 512 q (by norm_num))) := by
  rw [val_main_v22_apply, val_main_v21_apply, val_main_cst_2_apply, val_main_v20_apply, val_main_v19_apply, val_main_cst_1_apply,
    val_main_v18_apply, val_main_v17_apply]
  exact (SplitDot.sigmoid_host _).trans (congrArg Ideal.logistic (v16_at x0 x1 x2 x3 x4 x5 x6 x7 x8 x9 x10 x11 x12 r q))

/-- The cell state after its spatial gate. -/
theorem v23_at (r : Fin 16384) (q : Fin 512) :
    val_main_v23 (F := Ideal) x2 x3 x4 x5 x6 (ix2 r q) = cell (R x0 x1 x2 x3 x4 r) (W x5 x6 x7 x8 x9 x10 x11 x12) q := by
  rw [val_main_v23_apply]
  exact congrArg (x2 (ix2 r q) * ·) (v11_at x0 x1 x2 x3 x4 x5 x6 x7 x8 x9 x10 x11 x12 r q)

/-- The hidden state after its spatial gate. -/
theorem v24_at (r : Fin 16384) (k : Fin 512) :
    val_main_v24 (F := Ideal) x1 x3 x4 x7 x8 (ix2 r k) = hid (R x0 x1 x2 x3 x4 r) (W x5 x6 x7 x8 x9 x10 x11 x12) k := by
  rw [val_main_v24_apply]
  exact congrArg (x1 (ix2 r k) * ·) (v22_at x0 x1 x2 x3 x4 x5 x6 x7 x8 x9 x10 x11 x12 r k)

/-- The four gates before their activations: the reference's two biases, added one after the other, are the kernel's sum. -/
theorem v35_at (r : Fin 16384) (n : Fin 2048) :
    val_main_v35 (F := Ideal) x0 x1 x3 x4 x7 x8 x9 x10 x11 x12 (ix2 r n) = gate (R x0 x1 x2 x3 x4 r) (W x5 x6 x7 x8 x9 x10 x11 x12) n := by
  refine Eq.trans ?_ (Cert.KernelIdeal.Prep.gate_prepared x5 x6 x7 x8 x9 x10 x11 x12 (R x0 x1 x2 x3 x4 r) n).symm
  unfold val_main_v35 val_main_v34 val_main_v33 val_main_v32 val_main_v29 val_main_v28 val_main_v27 val_main_v26 val_main_v25
    val_main_v31 val_main_v30
  rw [dotX, dotH]
  have hA := SplitDot.dot_transposed none HostSchedule.single x0 x9 transposes_S2048x256_S256x2048_1_0 r n
  have hB := (SplitDot.dot_transposed none HostSchedule.single (val_main_v24 (F := Ideal) x1 x3 x4 x7 x8) x11
      transposes_S2048x512_S512x2048_1_0 r n).trans
    (Finset.sum_congr rfl fun k _ => congrArg (· * x11 (ix2 n k)) (v24_at x0 x1 x2 x3 x4 x5 x6 x7 x8 x9 x10 x11 x12 r k))
  refine (addf_apply _ _ _).trans ?_
  refine Eq.trans (congrArg₂ (· + ·) ((addf_apply _ _ _).trans (congrArg₂ (· + ·) ((addf_apply _ _ _).trans
    (congrArg₂ (· + ·) hA (Affine.bias_rows_apply x10 _ _ r n))) hB)) (Affine.bias_rows_apply x12 _ _ r n)) ?_
  exact (add_assoc _ _ _).trans (add_add_add_comm _ _ _ _)

/-- The four runs of 512 columns. -/
theorem v36_at (r : Fin 16384) (q : Fin 512) :
    val_main_v36 (F := Ideal) x0 x1 x3 x4 x7 x8 x9 x10 x11 x12 (ix2 r q) = gate (R x0 x1 x2 x3 x4 r) (W x5 x6 x7 x8 x9 x10 x11 x12) (col 0 q (by norm_num)) := by
  unfold val_main_v36
  exact (slice2_axis1_apply 0 _ _ r q (col 0 q (by norm_num)) rfl).trans (v35_at x0 x1 x2 x3 x4 x5 x6 x7 x8 x9 x10 x11 x12 r _)

theorem v37_at (r : Fin 16384) (q : Fin 512) :
    val_main_v37 (F := Ideal) x0 x1 x3 x4 x7 x8 x9 x10 x11 x12 (ix2 r q) = gate (R x0 x1 x2 x3 x4 r) (W x5 x6 x7 x8 x9 x10 x11 x12) (col 512 q (by norm_num)) := by
  unfold val_main_v37
  exact (slice2_axis1_apply 512 _ _ r q (col 512 q (by norm_num)) rfl).trans (v35_at x0 x1 x2 x3 x4 x5 x6 x7 x8 x9 x10 x11 x12 r _)

theorem v38_at (r : Fin 16384) (q : Fin 512) :
    val_main_v38 (F := Ideal) x0 x1 x3 x4 x7 x8 x9 x10 x11 x12 (ix2 r q) = gate (R x0 x1 x2 x3 x4 r) (W x5 x6 x7 x8 x9 x10 x11 x12) (col 1024 q (by norm_num)) := by
  unfold val_main_v38
  exact (slice2_axis1_apply 1024 _ _ r q (col 1024 q (by norm_num)) rfl).trans (v35_at x0 x1 x2 x3 x4 x5 x6 x7 x8 x9 x10 x11 x12 r _)

theorem v39_at (r : Fin 16384) (q : Fin 512) :
    val_main_v39 (F := Ideal) x0 x1 x3 x4 x7 x8 x9 x10 x11 x12 (ix2 r q) = gate (R x0 x1 x2 x3 x4 r) (W x5 x6 x7 x8 x9 x10 x11 x12) (col 1536 q (by norm_num)) := by
  unfold val_main_v39
  exact (slice2_axis1_apply 1536 _ _ r q (col 1536 q (by norm_num)) rfl).trans (v35_at x0 x1 x2 x3 x4 x5 x6 x7 x8 x9 x10 x11 x12 r _)

/-- The forget, input and output gates after the logistic function. -/
theorem v45_at (r : Fin 16384) (q : Fin 512) :
    val_main_v45 (F := Ideal) x0 x1 x3 x4 x7 x8 x9 x10 x11 x12 (ix2 r q) = Ideal.logistic (gate (R x0 x1 x2 x3 x4 r) (W x5 x6 x7 x8 x9 x10 x11 x12) (col 512 q (by norm_num))) := by
  rw [val_main_v45_apply, val_main_v44_apply, val_main_cst_4_apply, val_main_v43_apply, val_main_v42_apply, val_main_cst_3_apply,
    val_main_v41_apply, val_main_v40_apply]
  exact (SplitDot.sigmoid_host _).trans (congrArg Ideal.logistic (v37_at x0 x1 x2 x3 x4 x5 x6 x7 x8 x9 x10 x11 x12 r q))

theorem v52_at (r : Fin 16384) (q : Fin 512) :
    val_main_v52 (F := Ideal) x0 x1 x3 x4 x7 x8 x9 x10 x11 x12 (ix2 r q) = Ideal.logistic (gate (R x0 x1 x2 x3 x4 r) (W x5 x6 x7 x8 x9 x10 x11 x12) (col 0 q (by norm_num))) := by
  rw [val_main_v52_apply, val_main_v51_apply, val_main_cst_6_apply, val_main_v50_apply, val_main_v49_apply, val_main_cst_5_apply,
    val_main_v48_apply, val_main_v47_apply]
  exact (SplitDot.sigmoid_host _).trans (congrArg Ideal.logistic (v36_at x0 x1 x2 x3 x4 x5 x6 x7 x8 x9 x10 x11 x12 r q))

theorem v61_at (r : Fin 16384) (q : Fin 512) :
    val_main_v61 (F := Ideal) x0 x1 x3 x4 x7 x8 x9 x10 x11 x12 (ix2 r q) = Ideal.logistic (gate (R x0 x1 x2 x3 x4 r) (W x5 x6 x7 x8 x9 x10 x11 x12) (col 1536 q (by norm_num))) := by
  rw [val_main_v61_apply, val_main_v60_apply, val_main_cst_8_apply, val_main_v59_apply, val_main_v58_apply, val_main_cst_7_apply,
    val_main_v57_apply, val_main_v56_apply]
  exact (SplitDot.sigmoid_host _).trans (congrArg Ideal.logistic (v39_at x0 x1 x2 x3 x4 x5 x6 x7 x8 x9 x10 x11 x12 r q))

/-- The reference's second result at `(r, q)`: the row's new cell state. -/
theorem v55_at (r : Fin 16384) (q : Fin 512) :
    val_main_v55 (F := Ideal) x0 x1 x2 x3 x4 x5 x6 x7 x8 x9 x10 x11 x12 (ix2 r q) = cnew (R x0 x1 x2 x3 x4 r) (W x5 x6 x7 x8 x9 x10 x11 x12) q := by
  rw [val_main_v55_apply, val_main_v46_apply, val_main_v54_apply, val_main_v53_apply]
  exact congrArg₂ (· + ·) (congrArg₂ (· * ·) (v45_at x0 x1 x2 x3 x4 x5 x6 x7 x8 x9 x10 x11 x12 r q) (v23_at x0 x1 x2 x3 x4 x5 x6 x7 x8 x9 x10 x11 x12 r q))
    (congrArg₂ (· * ·) (v52_at x0 x1 x2 x3 x4 x5 x6 x7 x8 x9 x10 x11 x12 r q) (congrArg Ideal.tanh (v38_at x0 x1 x2 x3 x4 x5 x6 x7 x8 x9 x10 x11 x12 r q)))

/-- The reference's first result at `(r, q)`: the row's new hidden state. -/
theorem v63_at (r : Fin 16384) (q : Fin 512) :
    val_main_v63 (F := Ideal) x0 x1 x2 x3 x4 x5 x6 x7 x8 x9 x10 x11 x12 (ix2 r q) = hnew (R x0 x1 x2 x3 x4 r) (W x5 x6 x7 x8 x9 x10 x11 x12) q := by
  rw [val_main_v63_apply, val_main_v62_apply]
  exact congrArg₂ (· * ·) (v61_at x0 x1 x2 x3 x4 x5 x6 x7 x8 x9 x10 x11 x12 r q) (congrArg Ideal.tanh (v55_at x0 x1 x2 x3 x4 x5 x6 x7 x8 x9 x10 x11 x12 r q))

/-- The reference's two results as whole arrays. -/
theorem cell_eq : val_main_v55 (F := Ideal) x0 x1 x2 x3 x4 x5 x6 x7 x8 x9 x10 x11 x12 = newCell x0 x1 x2 x3 x4 (W x5 x6 x7 x8 x9 x10 x11 x12) := by
  funext i
  obtain ⟨r, q, rfl⟩ : ∃ (r : Fin 16384) (q : Fin 512), i = ix2 r q := ⟨i 0, i 1, eq_ix2 i⟩
  exact v55_at x0 x1 x2 x3 x4 x5 x6 x7 x8 x9 x10 x11 x12 r q

theorem hidden_eq : val_main_v63 (F := Ideal) x0 x1 x2 x3 x4 x5 x6 x7 x8 x9 x10 x11 x12 = newHidden x0 x1 x2 x3 x4 (W x5 x6 x7 x8 x9 x10 x11 x12) := by
  funext i
  obtain ⟨r, q, rfl⟩ : ∃ (r : Fin 16384) (q : Fin 512), i = ix2 r q := ⟨i 0, i 1, eq_ix2 i⟩
  exact v63_at x0 x1 x2 x3 x4 x5 x6 x7 x8 x9 x10 x11 x12 r q

end Cert.ReferenceIdeal.RefCell

end
-- ==== Proof.lean ====
/-
  One step of a gated recurrent cell with two fused spatial gates, row-tiled in blocks of 512 rows with bf16 operands on
  the matrix unit, against its plain reference, over the extended reals.

  Both programs compute, for every row `r` of the five row-wise arguments (the input, the hidden and cell states, the two
  neighbours' hidden states) and every column `q < 512`,
    cnew(r,q) = σ(gate(r, 512+q)) · cs(r,q)·σ(logit_f(r,q)) + σ(gate(r,q)) · tanh(gate(r, 1024+q)),
    hnew(r,q) = σ(gate(r, 1536+q)) · tanh(cnew(r,q)),
  with `logit_f`, `logit_i` the two spatial gates' affine maps of the neighbours' states, `gate` the cell's affine map of the
  input and of `hs · σ(logit_i)`, and `σ` the logistic function (Cert.Cell, Proof/CellRow.lean).
  The kernel's program prepares its weights on the host (column ranges transposed and laid side by side, biases joined or
  added: Proof/CellPrep.lean), stages 512 rows per grid point and computes the row function on each (Proof/CellBody.lean);
  its 32 blocks tile the result arrays (Proof/CellFinal.lean). The reference multiplies the neighbours' states laid side by
  side by the whole transposed spatial matrices, spells `σ` as `1 / (1 + exp (−x))`, and adds the cell's two biases one
  after the other (Proof/CellRef.lean). The two agree by splitting a finite sum at a position and by associativity and
  commutativity of addition — laws of every commutative additive monoid, so the finiteness of the inputs is never used —
  and because a change of float format is the identity on the extended reals.
  The ideal pass's ledger is empty (Defs.lean states `preserves_Kernel_KernelIdeal` as `True`), so that conjunct is `trivial`.
-/
import proofs.«143091_j83700322664663_2_alg».proof.Defs
import proofs.«143091_j83700322664663_2_alg».proof.Proof.Gen.Kernel
import proofs.«143091_j83700322664663_2_alg».proof.Proof.Gen.Kernel.Skeleton
import proofs.«143091_j83700322664663_2_alg».proof.Proof.Gen.Kernel.Launch
import proofs.«143091_j83700322664663_2_alg».proof.Proof.Gen.Kernel.Points
import proofs.«143091_j83700322664663_2_alg».proof.Proof.Gen.Kernel.Frame
import proofs.«143091_j83700322664663_2_alg».proof.Proof.Gen.KernelIdeal
import proofs.«143091_j83700322664663_2_alg».proof.Proof.Gen.KernelIdeal.Skeleton
import proofs.«143091_j83700322664663_2_alg».proof.Proof.Gen.KernelIdeal.Launch
import proofs.«143091_j83700322664663_2_alg».proof.Proof.Gen.KernelIdeal.Points
import proofs.«143091_j83700322664663_2_alg».proof.Proof.Gen.KernelIdeal.Frame
import proofs.«143091_j83700322664663_2_alg».proof.Proof.Gen.ReferenceIdeal
import proofs.«143091_j83700322664663_2_alg».proof.Proof.Gen.Pre_finite_inputs
import proofs.«143091_j83700322664663_2_alg».proof.Proof.Gen.ReferenceIdeal.Run
import proofs.«143091_j83700322664663_2_alg».proof.Proof.Gen.ReferenceIdeal.Read
import proofs.«143091_j83700322664663_2_alg».proof.Proof.CellFinal
import proofs.«143091_j83700322664663_2_alg».proof.Proof.CellRef
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments, both programs end with the new hidden state and the new cell state of every row. -/
theorem algebraic : Cert.algebraic_KernelIdeal_ReferenceIdeal := by
  intro m ρ m' ρ' _ hagree
  refine ⟨fun c => Cert.KernelIdeal.Final.hiddenArr m c, fun c => Cert.KernelIdeal.Final.cellArr m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    rw [Cert.ReferenceIdeal.Read.val_main_v63_eq, Cert.ReferenceIdeal.RefCell.hidden_eq,
      a0, a1, a2, a3, a4, a5, a6, a7, a8, a9, a10, a11, a12]
    rfl
  · obtain ⟨a0, a1, a2, a3, a4, a5, a6, a7, a8, a9, a10, a11, a12⟩ := hagree c
    rw [Cert.ReferenceIdeal.Read.val_main_v55_eq, Cert.ReferenceIdeal.RefCell.cell_eq,
      a0, a1, a2, a3, a4, a5, a6, a7, a8, a9, a10, a11, a12]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
